-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x20x64 : Shape := ⟨3, ![65536, 20, 64]⟩
abbrev S32768x20 : Shape := ⟨2, ![32768, 20]⟩
abbrev S65536x20 : Shape := ⟨2, ![65536, 20]⟩
abbrev S_ : Shape := ⟨0, ![]⟩

class Facts : Prop where
  bcast_S_S65536x20x64 : S_.BroadcastsInDim S65536x20x64 (![] : Fin 0 → Fin S65536x20x64.rank)
  reducesTo_S65536x20x64_S_d0_1_2 : S65536x20x64.ReducesTo [0, 1, 2] S_
  h_S_ : 0 < S_.numel
  bcast_S_S32768x20 : S_.BroadcastsInDim S32768x20 (![] : Fin 0 → Fin S32768x20.rank)
  reducesTo_S32768x20_S_d0_1 : S32768x20.ReducesTo [0, 1] S_

variable [Facts]

def fn_part1 {F : FTy → Type} [FloatOps F] (main_v13 : IVec S_ 1) (main_v16 : IVec S32768x20 1) : IVec S_ 1 :=
  let main_c_5 : IVec S_ 1 := constantI S_ 1 1#1
  let main_v17 : IVec S_ 1 := (fun x v => Host.reduce IntOp.andi x v reducesTo_S32768x20_S_d0_1 h_S_) main_v16 main_c_5
  let main_v18 : IVec S_ 1 := andi main_v13 main_v17
  main_v18

def fn {F : FTy → Type} [FloatOps F] (main_arg0 : FVec F S65536x20x64 .f32) (main_arg1 : FVec F S65536x20x64 .f32) (main_arg2 : FVec F S65536x20x64 .f32) (main_arg3 : FVec F S32768x20 .f32) (main_arg4 : IVec S65536x20 1) : IVec S_ 1 :=
  let main_v0 : FVec F S65536x20x64 .f32 := Host.absf main_arg0
  let main_cst : FVec F S_ .f32 := constant S_ .f32 0x7F800000#32
  let main_v1 : FVec F S65536x20x64 .f32 := broadcastInDim S65536x20x64 ![] bcast_S_S65536x20x64 main_cst
  let main_v2 : IVec S65536x20x64 1 := cmpf .olt main_v0 main_v1
  let main_c : IVec S_ 1 := constantI S_ 1 1#1
  let main_v3 : IVec S_ 1 := (fun x v => Host.reduce IntOp.andi x v reducesTo_S65536x20x64_S_d0_1_2 h_S_) main_v2 main_c
  let main_v4 : FVec F S65536x20x64 .f32 := Host.absf main_arg1
  let main_cst_0 : FVec F S_ .f32 := constant S_ .f32 0x7F800000#32
  let main_v5 : FVec F S65536x20x64 .f32 := broadcastInDim S65536x20x64 ![] bcast_S_S65536x20x64 main_cst_0
  let main_v6 : IVec S65536x20x64 1 := cmpf .olt main_v4 main_v5
  let main_c_1 : IVec S_ 1 := constantI S_ 1 1#1
  let main_v7 : IVec S_ 1 := (fun x v => Host.reduce IntOp.andi x v reducesTo_S65536x20x64_S_d0_1_2 h_S_) main_v6 main_c_1
  let main_v8 : IVec S_ 1 := andi main_v3 main_v7
  let main_v9 : FVec F S65536x20x64 .f32 := Host.absf main_arg2
  let main_cst_2 : FVec F S_ .f32 := constant S_ .f32 0x7F800000#32
  let main_v10 : FVec F S65536x20x64 .f32 := broadcastInDim S65536x20x64 ![] bcast_S_S65536x20x64 main_cst_2
  let main_v11 : IVec S65536x20x64 1 := cmpf .olt main_v9 main_v10
  let main_c_3 : IVec S_ 1 := constantI S_ 1 1#1
  let main_v12 : IVec S_ 1 := (fun x v => Host.reduce IntOp.andi x v reducesTo_S65536x20x64_S_d0_1_2 h_S_) main_v11 main_c_3
  let main_v13 : IVec S_ 1 := andi main_v8 main_v12
  let main_v14 : FVec F S32768x20 .f32 := Host.absf main_arg3
  let main_cst_4 : FVec F S_ .f32 := constant S_ .f32 0x7F800000#32
  let main_v15 : FVec F S32768x20 .f32 := broadcastInDim S32768x20 ![] bcast_S_S32768x20 main_cst_4
  let main_v16 : IVec S32768x20 1 := cmpf .olt main_v14 main_v15
  fn_part1 (F := F) main_v13 main_v16
-- ==== Kernel.lean ====
abbrev S65536x20x64 : Shape := ⟨3, ![65536, 20, 64]⟩
abbrev S32768x20 : Shape := ⟨2, ![32768, 20]⟩
abbrev S65536x20 : Shape := ⟨2, ![65536, 20]⟩
abbrev S65536x1280 : Shape := ⟨2, ![65536, 1280]⟩
abbrev S65536x64 : Shape := ⟨2, ![65536, 64]⟩
abbrev S1024x1280 : Shape := ⟨2, ![1024, 1280]⟩
abbrev S1024x20 : Shape := ⟨2, ![1024, 20]⟩
abbrev S1024x64 : Shape := ⟨2, ![1024, 64]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S65536x20x64, .f32⟩
  | .hbm, ⟨1, _⟩ => ⟨S65536x20x64, .f32⟩
  | .hbm, ⟨2, _⟩ => ⟨S65536x20x64, .f32⟩
  | .hbm, ⟨3, _⟩ => ⟨S32768x20, .f32⟩
  | .hbm, ⟨4, _⟩ => ⟨S65536x20, .i1⟩
  | .hbm, ⟨5, _⟩ => ⟨S65536x1280, .f32⟩
  | .hbm, ⟨6, _⟩ => ⟨S65536x1280, .f32⟩
  | .hbm, ⟨7, _⟩ => ⟨S65536x1280, .f32⟩
  | .hbm, ⟨8, _⟩ => ⟨S65536x20, .i32⟩
  | .hbm, ⟨9, _⟩ => ⟨S65536x64, .f32⟩
  | .hbm, ⟨10, _⟩ => ⟨S65536x20, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | .local _ .vmem, ⟨6, _⟩ => ⟨S1024x20, .i32⟩
  | .local _ .vmem, ⟨7, _⟩ => ⟨S1024x20, .i32⟩
  | .local _ .vmem, ⟨8, _⟩ => ⟨S1024x20, .f32⟩
  | .local _ .vmem, ⟨9, _⟩ => ⟨S1024x20, .f32⟩
  | .local _ .vmem, ⟨10, _⟩ => ⟨S1024x64, .f32⟩
  | .local _ .vmem, ⟨11, _⟩ => ⟨S1024x64, .f32⟩
  | .local _ .vmem, ⟨12, _⟩ => ⟨S1024x20, .f32⟩
  | .local _ .vmem, ⟨13, _⟩ => ⟨S1024x20, .f32⟩
  | .local _ .vmem, ⟨14, _⟩ => ⟨S1024x20, .f32⟩
  | _, _ => ⟨S65536x20x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x20 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S65536x20x64_S65536x1280 : S65536x20x64.ShapeCasts S65536x1280
  natLt_1_32 : 1 < 32
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1024x20_S1024x20_0_0 : ∀ a, (![0, 0] : Fin 2 → Nat) a + S1024x20.size a ≤ S1024x20.size a
  h_S1024x20 : 0 < S1024x20.numel
  slices_S1024x1280_o0_0_S1024x64 : S1024x1280.Slices ![0, 0] S1024x64
  reduces_S1024x64_S1024 : S1024x64.Reduces [1] S1024
  shapeCasts_S1024_S1024x1 : S1024.ShapeCasts S1024x1
  inb_S1024x20_S1024x1_0_0 : ∀ a, (![0, 0] : Fin 2 → Nat) a + S1024x1.size a ≤ S1024x20.size a
  h_S1024x1 : 0 < S1024x1.numel
  shapeCasts_S1024x1_S1024x1 : S1024x1.ShapeCasts S1024x1
  slices_S1024x1280_o0_64_S1024x64 : S1024x1280.Slices ![0, 64] S1024x64
  inb_S1024x20_S1024x1_0_1 : ∀ a, (![0, 1] : Fin 2 → Nat) a + S1024x1.size a ≤ S1024x20.size a
  slices_S1024x1280_o0_128_S1024x64 : S1024x1280.Slices ![0, 128] S1024x64
  inb_S1024x20_S1024x1_0_2 : ∀ a, (![0, 2] : Fin 2 → Nat) a + S1024x1.size a ≤ S1024x20.size a
  slices_S1024x1280_o0_192_S1024x64 : S1024x1280.Slices ![0, 192] S1024x64
  inb_S1024x20_S1024x1_0_3 : ∀ a, (![0, 3] : Fin 2 → Nat) a + S1024x1.size a ≤ S1024x20.size a
  slices_S1024x1280_o0_256_S1024x64 : S1024x1280.Slices ![0, 256] S1024x64
  inb_S1024x20_S1024x1_0_4 : ∀ a, (![0, 4] : Fin 2 → Nat) a + S1024x1.size a ≤ S1024x20.size a
  slices_S1024x1280_o0_320_S1024x64 : S1024x1280.Slices ![0, 320] S1024x64
  inb_S1024x20_S1024x1_0_5 : ∀ a, (![0, 5] : Fin 2 → Nat) a + S1024x1.size a ≤ S1024x20.size a
  slices_S1024x1280_o0_384_S1024x64 : S1024x1280.Slices ![0, 384] S1024x64
  inb_S1024x20_S1024x1_0_6 : ∀ a, (![0, 6] : Fin 2 → Nat) a + S1024x1.size a ≤ S1024x20.size a
  slices_S1024x1280_o0_448_S1024x64 : S1024x1280.Slices ![0, 448] S1024x64
  inb_S1024x20_S1024x1_0_7 : ∀ a, (![0, 7] : Fin 2 → Nat) a + S1024x1.size a ≤ S1024x20.size a
  slices_S1024x1280_o0_512_S1024x64 : S1024x1280.Slices ![0, 512] S1024x64
  inb_S1024x20_S1024x1_0_8 : ∀ a, (![0, 8] : Fin 2 → Nat) a + S1024x1.size a ≤ S1024x20.size a
  slices_S1024x1280_o0_576_S1024x64 : S1024x1280.Slices ![0, 576] S1024x64
  inb_S1024x20_S1024x1_0_9 : ∀ a, (![0, 9] : Fin 2 → Nat) a + S1024x1.size a ≤ S1024x20.size a
  slices_S1024x1280_o0_640_S1024x64 : S1024x1280.Slices ![0, 640] S1024x64
  inb_S1024x20_S1024x1_0_10 : ∀ a, (![0, 10] : Fin 2 → Nat) a + S1024x1.size a ≤ S1024x20.size a
  slices_S1024x1280_o0_704_S1024x64 : S1024x1280.Slices ![0, 704] S1024x64
  inb_S1024x20_S1024x1_0_11 : ∀ a, (![0, 11] : Fin 2 → Nat) a + S1024x1.size a ≤ S1024x20.size a
  slices_S1024x1280_o0_768_S1024x64 : S1024x1280.Slices ![0, 768] S1024x64
  inb_S1024x20_S1024x1_0_12 : ∀ a, (![0, 12] : Fin 2 → Nat) a + S1024x1.size a ≤ S1024x20.size a
  slices_S1024x1280_o0_832_S1024x64 : S1024x1280.Slices ![0, 832] S1024x64
  inb_S1024x20_S1024x1_0_13 : ∀ a, (![0, 13] : Fin 2 → Nat) a + S1024x1.size a ≤ S1024x20.size a
  slices_S1024x1280_o0_896_S1024x64 : S1024x1280.Slices ![0, 896] S1024x64
  inb_S1024x20_S1024x1_0_14 : ∀ a, (![0, 14] : Fin 2 → Nat) a + S1024x1.size a ≤ S1024x20.size a
  slices_S1024x1280_o0_960_S1024x64 : S1024x1280.Slices ![0, 960] S1024x64
  inb_S1024x20_S1024x1_0_15 : ∀ a, (![0, 15] : Fin 2 → Nat) a + S1024x1.size a ≤ S1024x20.size a
  slices_S1024x1280_o0_1024_S1024x64 : S1024x1280.Slices ![0, 1024] S1024x64
  inb_S1024x20_S1024x1_0_16 : ∀ a, (![0, 16] : Fin 2 → Nat) a + S1024x1.size a ≤ S1024x20.size a
  slices_S1024x1280_o0_1088_S1024x64 : S1024x1280.Slices ![0, 1088] S1024x64
  inb_S1024x20_S1024x1_0_17 : ∀ a, (![0, 17] : Fin 2 → Nat) a + S1024x1.size a ≤ S1024x20.size a
  slices_S1024x1280_o0_1152_S1024x64 : S1024x1280.Slices ![0, 1152] S1024x64
  inb_S1024x20_S1024x1_0_18 : ∀ a, (![0, 18] : Fin 2 → Nat) a + S1024x1.size a ≤ S1024x20.size a
  slices_S1024x1280_o0_1216_S1024x64 : S1024x1280.Slices ![0, 1216] S1024x64
  inb_S1024x20_S1024x1_0_19 : ∀ a, (![0, 19] : Fin 2 → Nat) a + S1024x1.size a ≤ S1024x20.size a
  reduces_S1024x20_S1024 : S1024x20.Reduces [1] S1024
  broadcasts_S1024x1_S1024x20 : S1024x1.Broadcasts S1024x20
  slices_S1024x20_o0_0_S1024x1 : S1024x20.Slices ![0, 0] S1024x1
  broadcasts_S1024x1_S1024x64 : S1024x1.Broadcasts S1024x64
  slices_S1024x20_o0_1_S1024x1 : S1024x20.Slices ![0, 1] S1024x1
  slices_S1024x20_o0_2_S1024x1 : S1024x20.Slices ![0, 2] S1024x1
  slices_S1024x20_o0_3_S1024x1 : S1024x20.Slices ![0, 3] S1024x1
  slices_S1024x20_o0_4_S1024x1 : S1024x20.Slices ![0, 4] S1024x1
  slices_S1024x20_o0_5_S1024x1 : S1024x20.Slices ![0, 5] S1024x1
  slices_S1024x20_o0_6_S1024x1 : S1024x20.Slices ![0, 6] S1024x1
  slices_S1024x20_o0_7_S1024x1 : S1024x20.Slices ![0, 7] S1024x1
  slices_S1024x20_o0_8_S1024x1 : S1024x20.Slices ![0, 8] S1024x1
  slices_S1024x20_o0_9_S1024x1 : S1024x20.Slices ![0, 9] S1024x1
  slices_S1024x20_o0_10_S1024x1 : S1024x20.Slices ![0, 10] S1024x1
  slices_S1024x20_o0_11_S1024x1 : S1024x20.Slices ![0, 11] S1024x1
  slices_S1024x20_o0_12_S1024x1 : S1024x20.Slices ![0, 12] S1024x1
  slices_S1024x20_o0_13_S1024x1 : S1024x20.Slices ![0, 13] S1024x1
  slices_S1024x20_o0_14_S1024x1 : S1024x20.Slices ![0, 14] S1024x1
  slices_S1024x20_o0_15_S1024x1 : S1024x20.Slices ![0, 15] S1024x1
  slices_S1024x20_o0_16_S1024x1 : S1024x20.Slices ![0, 16] S1024x1
  slices_S1024x20_o0_17_S1024x1 : S1024x20.Slices ![0, 17] S1024x1
  slices_S1024x20_o0_18_S1024x1 : S1024x20.Slices ![0, 18] S1024x1
  slices_S1024x20_o0_19_S1024x1 : S1024x20.Slices ![0, 19] S1024x1
  inb_S1024x64_S1024x64_0_0 : ∀ a, (![0, 0] : Fin 2 → Nat) a + S1024x64.size a ≤ S1024x64.size a
  h_S1024x64 : 0 < S1024x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S65536x1280.size a
  hwx0_0 : ∀ i : grid0.Coords, EltTy.bits .f32 = 32 ∨ (Rect.block (s := S65536x1280) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S65536x1280.size a
  hwx0_1 : ∀ i : grid0.Coords, EltTy.bits .f32 = 32 ∨ (Rect.block (s := S65536x1280) S1024x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S65536x1280.size a
  hwx0_2 : ∀ i : grid0.Coords, EltTy.bits .f32 = 32 ∨ (Rect.block (s := S65536x1280) S1024x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x20.size a ≤ S65536x20.size a
  hwx0_3 : ∀ i : grid0.Coords, EltTy.bits .i32 = 32 ∨ (Rect.block (s := S65536x20) S1024x20.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x20.size a ≤ S32768x20.size a
  hwx0_4 : ∀ i : grid0.Coords, EltTy.bits .f32 = 32 ∨ (Rect.block (s := S32768x20) S1024x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S65536x64.size a
  hwx0_5 : ∀ i : grid0.Coords, EltTy.bits .f32 = 32 ∨ (Rect.block (s := S65536x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x20.size a ≤ S65536x20.size a
  hwx0_6 : ∀ i : grid0.Coords, EltTy.bits .f32 = 32 ∨ (Rect.block (s := S65536x20) S1024x20.size (cc0_transform_6 i) (hinb0_6 i)).WholeWords (EltTy.packing .f32)

variable [Facts₀]

abbrev win0_0 : Pipeline.Window sig grid0 :=
  Pipeline.Window.ofSpec (Memref.whole main_v0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1024x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x20x64 : Shape := ⟨3, ![65536, 20, 64]⟩
abbrev S32768x20 : Shape := ⟨2, ![32768, 20]⟩
abbrev S65536x20 : Shape := ⟨2, ![65536, 20]⟩
abbrev S_ : Shape := ⟨0, ![]⟩
abbrev S2x32768x20 : Shape := ⟨3, ![2, 32768, 20]⟩
abbrev S1x32768x20 : Shape := ⟨3, ![1, 32768, 20]⟩
abbrev S65536 : Shape := ⟨1, ![65536]⟩
abbrev S65536x1 : Shape := ⟨2, ![65536, 1]⟩
abbrev S65536x20x1 : Shape := ⟨3, ![65536, 20, 1]⟩
abbrev S65536x64 : Shape := ⟨2, ![65536, 64]⟩

abbrev nBuf : Space → Nat
  | .hbm => 39
  | .vmem => 0
  | .smem => 0
  | _ => 0

abbrev bufTy : (tb : Table) → Fin (tcTables nBuf tb) → BufTy
  | .hbm, ⟨0, _⟩ => ⟨S65536x20x64, .f32⟩
  | .hbm, ⟨1, _⟩ => ⟨S65536x20x64, .f32⟩
  | .hbm, ⟨2, _⟩ => ⟨S65536x20x64, .f32⟩
  | .hbm, ⟨3, _⟩ => ⟨S32768x20, .f32⟩
  | .hbm, ⟨4, _⟩ => ⟨S65536x20, .i1⟩
  | .hbm, ⟨5, _⟩ => ⟨S65536x20x64, .f32⟩
  | .hbm, ⟨6, _⟩ => ⟨S_, .f32⟩
  | .hbm, ⟨7, _⟩ => ⟨S65536x20, .f32⟩
  | .hbm, ⟨8, _⟩ => ⟨S2x32768x20, .f32⟩
  | .hbm, ⟨9, _⟩ => ⟨S1x32768x20, .f32⟩
  | .hbm, ⟨10, _⟩ => ⟨S2x32768x20, .f32⟩
  | .hbm, ⟨11, _⟩ => ⟨S2x32768x20, .f32⟩
  | .hbm, ⟨12, _⟩ => ⟨S_, .f32⟩
  | .hbm, ⟨13, _⟩ => ⟨S2x32768x20, .f32⟩
  | .hbm, ⟨14, _⟩ => ⟨S2x32768x20, .f32⟩
  | .hbm, ⟨15, _⟩ => ⟨S65536x20, .f32⟩
  | .hbm, ⟨16, _⟩ => ⟨S_, .f32⟩
  | .hbm, ⟨17, _⟩ => ⟨S_, .f32⟩
  | .hbm, ⟨18, _⟩ => ⟨S65536x20, .f32⟩
  | .hbm, ⟨19, _⟩ => ⟨S65536x20, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S65536x1, .f32⟩
  | .hbm, ⟨26, _⟩ => ⟨S65536x20, .f32⟩
  | .hbm, ⟨27, _⟩ => ⟨S65536x20, .f32⟩
  | .hbm, ⟨28, _⟩ => ⟨S65536x20, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S65536x20, .f32⟩
  | .hbm, ⟨33, _⟩ => ⟨S65536x20, .f32⟩
  | .hbm, ⟨34, _⟩ => ⟨S65536x20x1, .f32⟩
  | .hbm, ⟨35, _⟩ => ⟨S65536x20x64, .f32⟩
  | .hbm, ⟨36, _⟩ => ⟨S65536x20x64, .f32⟩
  | .hbm, ⟨37, _⟩ => ⟨S_, .f32⟩
  | .hbm, ⟨38, _⟩ => ⟨S65536x64, .f32⟩
  | _, _ => ⟨S65536x20x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S65536x20x64_S65536x20_d2 : S65536x20x64.ReducesTo [2] S65536x20
  h_S_ : 0 < S_.numel
  shapeCasts_S65536x20_S2x32768x20 : S65536x20.ShapeCasts S2x32768x20
  bcast_S32768x20_S1x32768x20_1_2 : S32768x20.BroadcastsInDim S1x32768x20 (![1, 2] : Fin 2 → Fin S1x32768x20.rank)
  bcast_S1x32768x20_S2x32768x20_0_1_2 : S1x32768x20.BroadcastsInDim S2x32768x20 (![0, 1, 2] : Fin 3 → Fin S2x32768x20.rank)
  bcast_S_S2x32768x20 : S_.BroadcastsInDim S2x32768x20 (![] : Fin 0 → Fin S2x32768x20.rank)
  shapeCasts_S2x32768x20_S65536x20 : S2x32768x20.ShapeCasts S65536x20
  bcast_S_S65536x20 : S_.BroadcastsInDim S65536x20 (![] : Fin 0 → Fin S65536x20.rank)
  reducesTo_S65536x20_S65536_d1 : S65536x20.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x20_0_1 : S65536x1.BroadcastsInDim S65536x20 (![0, 1] : Fin 2 → Fin S65536x20.rank)
  bcast_S65536x20_S65536x20x1_0_1 : S65536x20.BroadcastsInDim S65536x20x1 (![0, 1] : Fin 2 → Fin S65536x20x1.rank)
  bcast_S65536x20x1_S65536x20x64_0_1_2 : S65536x20x1.BroadcastsInDim S65536x20x64 (![0, 1, 2] : Fin 3 → Fin S65536x20x64.rank)
  reducesTo_S65536x20x64_S65536x64_d1 : S65536x20x64.ReducesTo [1] S65536x64

variable [Facts₀]

class Facts : Prop extends Facts₀ where

variable [Facts]
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«114393_j13692355740194_2_alg».proof.Proof.LibLayout
import proofs.«114393_j13692355740194_2_alg».proof.Proof.LibRowCol
import proofs.«114393_j13692355740194_2_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.LibSliceCols.lean ====
/-
  A rank-2 array cut along its LAST axis: the unit-stride slice `[a, b] → [a, w]` that starts at column `o`, read at
  `(p, d)`, is the array at `(p, o + d)`; and a slice one column wide, read at `(p, u)`, is the array at `(p, o)`.
  Generic extents; indices are built from coordinates.
-/
import Idealize.ShloMosaic.Lib.Pipeline.Value
import Idealize.ShloMosaic.Lib.ValueIdx

namespace SliceCols

open Idealize.ShloMosaic Idealize.ShloMosaic.ValueIdx

variable {α : Type}

/-- Columns `o … o + w − 1` of an `[a, b]` array, at `(p, d)`. -/
theorem cols_apply {a b w : ℕ} (o : ℕ) (x : (⟨2, ![a, b]⟩ : Shape).Idx → α)
    (h : (⟨2, ![a, b]⟩ : Shape).Slices ![0, o] ⟨2, ![a, w]⟩) (p : Fin a) (d : Fin w) (hd : o + d.val < b) :
    extractStridedSlice ⟨2, ![a, w]⟩ ![0, o] x h (ix2 p d) = x (ix2 p ⟨o + d.val, hd⟩) :=
  extractStridedSlice_apply _ x h _ _ fun ax => by
    match ax with
    | ⟨0, _⟩ => show p.val = 0 + p.val; omega
    | ⟨1, _⟩ => rfl

/-- Column `o` of an `[a, b]` array as an `[a, 1]` array, at `(p, u)`. -/
theorem col_apply {a b : ℕ} (o : ℕ) (x : (⟨2, ![a, b]⟩ : Shape).Idx → α)
    (h : (⟨2, ![a, b]⟩ : Shape).Slices ![0, o] ⟨2, ![a, 1]⟩) (p : Fin a) (u : Fin 1) (ho : o < b) :
    extractStridedSlice ⟨2, ![a, 1]⟩ ![0, o] x h (ix2 p u) = x (ix2 p ⟨o, ho⟩) :=
  extractStridedSlice_apply _ x h _ _ fun ax => by
    match ax with
    | ⟨0, _⟩ => show p.val = 0 + p.val; omega
    | ⟨1, _⟩ => show o = o + u.val; omega

end SliceCols
-- ==== Proof.Spec.lean ====
/-
  Neighbour attention on the extended reals, entry by entry.

  For every row `n` (65536 of them) there are 20 neighbours, each with a 64-entry query, key and value.  The raw score
  of neighbour `l` is the inner product `∑ d, q n l d * k n l d`.  It is reweighted by a prior `r (n mod 32768) l`
  (the rows are two head segments laid end to end over the same 32768 prior rows) and scaled by the word of 1/8;
  where the mask bit is set the fill value replaces it.  The weights are the row's softmax taken stably — the maximum
  folded from −∞ is subtracted before the exponential — and the output row is `∑ l, weight n l * v n l d`.

  Beside the definitions: a quotient by the word of 8 is the product with the word of 1/8 on every extended real;
  one more maximum with −∞ leaves a maximum folded from −∞ unchanged; and a total accumulated from zero through the
  twenty neighbours in order is the sum over them.
-/
import Idealize.ShloMosaic.PureOps.Ideal
import Idealize.ShloMosaic.PureOps.Ideal.Laws
import Idealize.ShloMosaic.Lib.ValueIdx

noncomputable section

open scoped BigOperators

namespace Sdpa

open Idealize.ShloMosaic Idealize.ShloMosaic.ValueIdx

/-- The shapes of the arguments and of the two results. -/
abbrev SQ : Shape := ⟨3, ![65536, 20, 64]⟩
abbrev SR : Shape := ⟨2, ![32768, 20]⟩
abbrev SM : Shape := ⟨2, ![65536, 20]⟩
abbrev SO : Shape := ⟨2, ![65536, 64]⟩

/-- The single-precision words of 1/8, of 8, of the fill value −10¹⁰ and of −∞. -/
abbrev c8 : EReal := Ideal.ofBits .f32 0x3E000000#32
abbrev w8 : EReal := Ideal.ofBits .f32 0x41000000#32
abbrev fill : EReal := Ideal.ofBits .f32 0xD01502F9#32
abbrev ninf : EReal := Ideal.ofBits .f32 0xFF800000#32

/-- Row `n` of the folded head layout reads prior row `n mod 32768`. -/
def prow (n : Fin 65536) : Fin 32768 := ⟨n.val % 32768, Nat.mod_lt _ (by norm_num)⟩

section
variable (q k v : SQ.Idx → EReal) (r : SR.Idx → EReal) (mk : SM.Idx → BitVec 1)

/-- The raw score of neighbour `l` of row `n`. -/
def raw (n : Fin 65536) (l : Fin 20) : EReal := ∑ d : Fin 64, q (ix3 n l d) * k (ix3 n l d)

/-- The logit: the fill value under the mask, the reweighted scaled score elsewhere. -/
def logit (n : Fin 65536) (l : Fin 20) : EReal :=
  Scalar.select (mk (ix2 n l)) fill (raw q k n l * r (ix2 (prow n) l) * c8)

/-- The row's maximum, folded from −∞. -/
def rowMax (n : Fin 65536) : EReal := (Finset.univ : Finset (Fin 20)).fold max ninf (fun l => logit q k r mk n l)

/-- The shifted exponential. -/
def ex (n : Fin 65536) (l : Fin 20) : EReal := Ideal.exp (logit q k r mk n l - rowMax q k r mk n)

/-- The attention weight. -/
def weight (n : Fin 65536) (l : Fin 20) : EReal := Ideal.div (ex q k r mk n l) (∑ l' : Fin 20, ex q k r mk n l')

/-- The weights as an array. -/
def attn : SM.Idx → EReal := fun i => weight q k r mk ⟨(i 0).val, idx2_lt0 i⟩ ⟨(i 1).val, idx2_lt1 i⟩

/-- The weighted sum of the values as an array. -/
def out : SO.Idx → EReal := fun i =>
  ∑ l : Fin 20, weight q k r mk ⟨(i 0).val, idx2_lt0 i⟩ l * v (ix3 ⟨(i 0).val, idx2_lt0 i⟩ l ⟨(i 1).val, idx2_lt1 i⟩)

theorem attn_ix2 (n : Fin 65536) (l : Fin 20) : attn q k r mk (ix2 n l) = weight q k r mk n l := rfl

theorem out_ix2 (n : Fin 65536) (d : Fin 64) :
    out q k v r mk (ix2 n d) = ∑ l : Fin 20, weight q k r mk n l * v (ix3 n l d) := rfl

end

/-! ## The three laws -/

theorem c8_eq : c8 = ((1 / 8 : ℝ) : EReal) := by
  simp [c8, Ideal.ofBits, Ideal.ieee]
  norm_cast
  norm_num

theorem w8_eq : w8 = ((8 : ℝ) : EReal) := by
  simp [w8, Ideal.ofBits, Ideal.ieee]
  norm_cast
  norm_num

/-- A quotient by 8 is the product with 1/8, on every extended real. -/
theorem div_w8 (x : EReal) : Ideal.div x w8 = x * c8 := by
  rw [w8_eq, c8_eq]
  exact Ideal.div_coe (by norm_num) x

/-- A fold of `max` is at least the value it starts from. -/
theorem max_ninf_fold (z : Fin 20 → EReal) :
    max ninf ((Finset.univ : Finset (Fin 20)).fold max ninf z) = (Finset.univ : Finset (Fin 20)).fold max ninf z :=
  max_eq_right ((Finset.le_fold_max ninf).mpr (Or.inl le_rfl))

/-- A total accumulated from zero through the twenty neighbours in order is the sum over them. -/
theorem sum20 (f : Fin 20 → EReal) :
    0 + f 0 + f 1 + f 2 + f 3 + f 4 + f 5 + f 6 + f 7 + f 8 + f 9 + f 10 + f 11 + f 12 + f 13 + f 14 + f 15 + f 16
      + f 17 + f 18 + f 19 = ∑ l : Fin 20, f l := by
  simp only [Fin.sum_univ_castSucc, Fin.sum_univ_zero]
  rfl

end Sdpa

end
-- ==== Proof.KernelPay.lean ====
/-
  The arithmetic of one block of rows, read entry by entry on the extended reals.

  A block is 1024 rows; each row carries 20 neighbours of 64 features laid side by side in 1280 columns.  A score
  column is the row sum of the product of the two 64-column slices that start at the same column.  From the 1024×20
  array of scores, the prior and the mask bits, the weights are the row's stable softmax of the masked, reweighted,
  scaled scores.  The output block accumulates, from zero and through the neighbours in order, each weight column
  stretched over 64 columns times the matching 64-column slice of the values: the sum over the neighbours.
-/
import proofs.«114393_j13692355740194_2_alg».proof.Proof.Gen.KernelIdeal.Skeleton
import proofs.«114393_j13692355740194_2_alg».proof.Proof.LibRowStat
import proofs.«114393_j13692355740194_2_alg».proof.Proof.LibSliceCols
import proofs.«114393_j13692355740194_2_alg».proof.Proof.Spec
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- A score column at `(p, u)`: the inner product of the two slices' rows. -/
theorem score_col (o : ℕ) (ho : o + 64 ≤ 1280) (a b : FVec Ideal S1024x1280 .f32)
    (hs : S1024x1280.Slices ![0, o] S1024x64) (hred : S1024x64.Reduces [1] S1024) (hφ : FKind.Formats .f32)
    (hacc : (0x00000000#32 : BitVec 32) = 0x00000000#32)
    (hc1 : S1024.ShapeCasts S1024x1) (hc2 : S1024x1.ShapeCasts S1024x1) (p : Fin 1024) (u : Fin 1) :
    shapeCast S1024x1 (shapeCast S1024x1 (multiReduction .add [1] S1024
        (mulf (extractStridedSlice S1024x64 ![0, o] a hs) (extractStridedSlice S1024x64 ![0, o] b hs))
        0x00000000#32 hred hφ hacc) hc1) hc2 (ix2 p u)
      = ∑ d : Fin 64, a (ix2 p ⟨o + d.val, by omega⟩) * b (ix2 p ⟨o + d.val, by omega⟩) := by
  rw [shapeCast_self]
  refine (RowStat.sum_col _ hred hφ hacc hc1 p u).trans (Finset.sum_congr rfl fun d _ => ?_)
  rw [mulf_apply, SliceCols.cols_apply o a hs p d (by omega), SliceCols.cols_apply o b hs p d (by omega)]

/-- The same when the product was formed before the column was summed. -/
theorem score_col' (prod : FVec Ideal S1024x64 .f32) (hred : S1024x64.Reduces [1] S1024) (hφ : FKind.Formats .f32)
    (hacc : (0x00000000#32 : BitVec 32) = 0x00000000#32)
    (hc1 : S1024.ShapeCasts S1024x1) (hc2 : S1024x1.ShapeCasts S1024x1) (p : Fin 1024) (u : Fin 1) :
    shapeCast S1024x1 (shapeCast S1024x1 (multiReduction .add [1] S1024 prod 0x00000000#32 hred hφ hacc) hc1) hc2 (ix2 p u)
      = ∑ d : Fin 64, prod (ix2 p d) := by
  rw [shapeCast_self]
  exact RowStat.sum_col _ hred hφ hacc hc1 p u

/-- The logit of a block row: the fill value under the mask bit, the reweighted, scaled score elsewhere. -/
def z (mb : IVec S1024x20 1) (pr sc : FVec Ideal S1024x20 .f32) (p : Fin 1024) (l : Fin 20) : EReal :=
  Scalar.select (mb (ix2 p l)) Sdpa.fill (sc (ix2 p l) * pr (ix2 p l) * Sdpa.c8)

/-- The block row's maximum, folded from −∞. -/
def zmax (mb : IVec S1024x20 1) (pr sc : FVec Ideal S1024x20 .f32) (p : Fin 1024) : EReal :=
  (Finset.univ : Finset (Fin 20)).fold max Sdpa.ninf (fun l => z mb pr sc p l)

/-- The weights of a block, from the mask bits, the prior block and the score block. -/
theorem weights_apply (mb : IVec S1024x20 1) (pr sc : FVec Ideal S1024x20 .f32) (p : Fin 1024) (l : Fin 20) :
    k0_pay30 (F := Ideal) mb pr sc (ix2 p l)
      = Ideal.div (Ideal.exp (z mb pr sc p l - zmax mb pr sc p))
          (∑ l' : Fin 20, Ideal.exp (z mb pr sc p l' - zmax mb pr sc p)) := by
  unfold k0_pay30
  rw [divf_apply, RowStat.sum_back, RowStat.exp_apply, subf_apply, RowStat.max_back]
  refine congrArg₂ Ideal.div rfl (Finset.sum_congr rfl fun l' _ => ?_)
  rw [RowStat.exp_apply, subf_apply, RowStat.max_back]
  rfl

end Cert.KernelIdeal.Pay

end
-- ==== Proof.KernelScratch.lean ====
/-
  The score block as the body leaves it in its scratch rows: twenty one-column stores, column `l` holding the inner
  products of neighbour `l`, read back whole.  Each store's payload is the score function at the index its rectangle
  names, and the twenty columns tile the 1024×20 block, so the read-back is the score function.
-/
import proofs.«114393_j13692355740194_2_alg».proof.Proof.Gen.KernelIdeal.Frame.Runs
import proofs.«114393_j13692355740194_2_alg».proof.Proof.KernelPay

set_option maxRecDepth 16384

noncomputable section

open scoped BigOperators

namespace Cert.KernelIdeal.Pay

open Cert.KernelIdeal Cert.KernelIdeal.Gen Idealize.ShloMosaic Idealize.ShloMosaic.ValueIdx Idealize.ShloMosaic.Tactic

/-- The score of neighbour `l` of block row `r`: the inner product of the two 64-column slices at column `64 l`. -/
def scoreAt (x0 x1 : Vec Ideal S1024x1280 .f32) (r : Fin 1024) (l : Fin 20) : EReal :=
  ∑ d : Fin 64, x0 (ix2 r ⟨64 * l.val + d.val, by omega⟩) * x1 (ix2 r ⟨64 * l.val + d.val, by omega⟩)

/-- The score block. -/
def score (x0 x1 : Vec Ideal S1024x1280 .f32) : FVec Ideal S1024x20 .f32 :=
  fun y => scoreAt x0 x1 ⟨(y 0).val, idx2_lt0 y⟩ ⟨(y 1).val, idx2_lt1 y⟩

theorem score_ix2 (x0 x1 : Vec Ideal S1024x1280 .f32) (r : Fin 1024) (l : Fin 20) : score x0 x1 (ix2 r l) = scoreAt x0 x1 r l := rfl

theorem pay2_eq (x : Vec Ideal S1024x1280 .f32) : k0_pay2 x = x := shapeCast_self _ _
theorem pay3_eq (x : Vec Ideal S1024x1280 .f32) : k0_pay3 x = x := shapeCast_self _ _

/-- Where a one-column rectangle at column `c` puts its local index `(r, u)`. -/
theorem emb_col (c : ℕ) (hc : c < 20) (inb : ∀ a, (![0, c] : Fin 2 → ℕ) a + S1024x1.size a ≤ S1024x20.size a) (r : Fin 1024) (u : Fin 1) :
    (Rect.unit (s := S1024x20) ![0, c] S1024x1.size inb).emb (ix2 r u) = ix2 r ⟨c, hc⟩ := by
  funext a
  apply Fin.ext
  match a with
  | ⟨0, _⟩ => show 0 + 1 * r.val = r.val; omega
  | ⟨1, _⟩ => show c + 1 * u.val = c; omega

/-! ## Each stored column is the score at its column -/

theorem col0 (x0 x1 : Vec Ideal S1024x1280 .f32) (r : Fin 1024) (u : Fin 1) :
    (k0_pay6 x0 x1 : FVec Ideal S1024x1 .f32) (ix2 r u) = scoreAt x0 x1 r ⟨0, by omega⟩ := by
  unfold k0_pay6
  refine (score_col 0 (by omega) _ _ _ _ _ _ _ _ r u).trans ?_
  simp only [pay2_eq, pay3_eq]
  rfl

theorem col1 (x0 x1 : Vec Ideal S1024x1280 .f32) (r : Fin 1024) (u : Fin 1) :
    (k0_pay7 x0 x1 : FVec Ideal S1024x1 .f32) (ix2 r u) = scoreAt x0 x1 r ⟨1, by omega⟩ := by
  unfold k0_pay7
  refine (score_col 64 (by omega) _ _ _ _ _ _ _ _ r u).trans ?_
  simp only [pay2_eq, pay3_eq]
  rfl

theorem col2 (x0 x1 : Vec Ideal S1024x1280 .f32) (r : Fin 1024) (u : Fin 1) :
    (k0_pay8 x0 x1 : FVec Ideal S1024x1 .f32) (ix2 r u) = scoreAt x0 x1 r ⟨2, by omega⟩ := by
  unfold k0_pay8
  refine (score_col 128 (by omega) _ _ _ _ _ _ _ _ r u).trans ?_
  simp only [pay2_eq, pay3_eq]
  rfl

theorem col3 (x0 x1 : Vec Ideal S1024x1280 .f32) (r : Fin 1024) (u : Fin 1) :
    (k0_pay10 (k0_pay9 x0 x1) : FVec Ideal S1024x1 .f32) (ix2 r u) = scoreAt x0 x1 r ⟨3, by omega⟩ := by
  unfold k0_pay10 k0_pay9
  refine (score_col 192 (by omega) _ _ _ _ _ _ _ _ r u).trans ?_
  simp only [pay2_eq, pay3_eq]
  rfl

theorem col4 (x0 x1 : Vec Ideal S1024x1280 .f32) (r : Fin 1024) (u : Fin 1) :
    (k0_pay11 (k0_pay2 x0) (k0_pay3 x1) : FVec Ideal S1024x1 .f32) (ix2 r u) = scoreAt x0 x1 r ⟨4, by omega⟩ := by
  unfold k0_pay11
  refine (score_col 256 (by omega) _ _ _ _ _ _ _ _ r u).trans ?_
  simp only [pay2_eq, pay3_eq]
  rfl

theorem col5 (x0 x1 : Vec Ideal S1024x1280 .f32) (r : Fin 1024) (u : Fin 1) :
    (k0_pay12 (k0_pay2 x0) (k0_pay3 x1) : FVec Ideal S1024x1 .f32) (ix2 r u) = scoreAt x0 x1 r ⟨5, by omega⟩ := by
  unfold k0_pay12
  refine (score_col 320 (by omega) _ _ _ _ _ _ _ _ r u).trans ?_
  simp only [pay2_eq, pay3_eq]
  rfl

theorem col6 (x0 x1 : Vec Ideal S1024x1280 .f32) (r : Fin 1024) (u : Fin 1) :
    (k0_pay13 (k0_pay2 x0) (k0_pay3 x1) : FVec Ideal S1024x1 .f32) (ix2 r u) = scoreAt x0 x1 r ⟨6, by omega⟩ := by
  unfold k0_pay13
  refine (score_col 384 (by omega) _ _ _ _ _ _ _ _ r u).trans ?_
  simp only [pay2_eq, pay3_eq]
  rfl

theorem col7 (x0 x1 : Vec Ideal S1024x1280 .f32) (r : Fin 1024) (u : Fin 1) :
    (k0_pay14 (k0_pay2 x0) (k0_pay3 x1) : FVec Ideal S1024x1 .f32) (ix2 r u) = scoreAt x0 x1 r ⟨7, by omega⟩ := by
  unfold k0_pay14
  refine (score_col 448 (by omega) _ _ _ _ _ _ _ _ r u).trans ?_
  simp only [pay2_eq, pay3_eq]
  rfl

theorem col8 (x0 x1 : Vec Ideal S1024x1280 .f32) (r : Fin 1024) (u : Fin 1) :
    (k0_pay16 (k0_pay15 (k0_pay2 x0) (k0_pay3 x1)) : FVec Ideal S1024x1 .f32) (ix2 r u) = scoreAt x0 x1 r ⟨8, by omega⟩ := by
  unfold k0_pay16 k0_pay15
  refine (score_col 512 (by omega) _ _ _ _ _ _ _ _ r u).trans ?_
  simp only [pay2_eq, pay3_eq]
  rfl

theorem col9 (x0 x1 : Vec Ideal S1024x1280 .f32) (r : Fin 1024) (u : Fin 1) :
    (k0_pay17 (k0_pay2 x0) (k0_pay3 x1) : FVec Ideal S1024x1 .f32) (ix2 r u) = scoreAt x0 x1 r ⟨9, by omega⟩ := by
  unfold k0_pay17
  refine (score_col 576 (by omega) _ _ _ _ _ _ _ _ r u).trans ?_
  simp only [pay2_eq, pay3_eq]
  rfl

theorem col10 (x0 x1 : Vec Ideal S1024x1280 .f32) (r : Fin 1024) (u : Fin 1) :
    (k0_pay18 (k0_pay2 x0) (k0_pay3 x1) : FVec Ideal S1024x1 .f32) (ix2 r u) = scoreAt x0 x1 r ⟨10, by omega⟩ := by
  unfold k0_pay18
  refine (score_col 640 (by omega) _ _ _ _ _ _ _ _ r u).trans ?_
  simp only [pay2_eq, pay3_eq]
  rfl

theorem col11 (x0 x1 : Vec Ideal S1024x1280 .f32) (r : Fin 1024) (u : Fin 1) :
    (k0_pay19 (k0_pay2 x0) (k0_pay3 x1) : FVec Ideal S1024x1 .f32) (ix2 r u) = scoreAt x0 x1 r ⟨11, by omega⟩ := by
  unfold k0_pay19
  refine (score_col 704 (by omega) _ _ _ _ _ _ _ _ r u).trans ?_
  simp only [pay2_eq, pay3_eq]
  rfl

theorem col12 (x0 x1 : Vec Ideal S1024x1280 .f32) (r : Fin 1024) (u : Fin 1) :
    (k0_pay20 (k0_pay2 x0) (k0_pay3 x1) : FVec Ideal S1024x1 .f32) (ix2 r u) = scoreAt x0 x1 r ⟨12, by omega⟩ := by
  unfold k0_pay20
  refine (score_col 768 (by omega) _ _ _ _ _ _ _ _ r u).trans ?_
  simp only [pay2_eq, pay3_eq]
  rfl

theorem col13 (x0 x1 : Vec Ideal S1024x1280 .f32) (r : Fin 1024) (u : Fin 1) :
    (k0_pay22 (k0_pay21 (k0_pay2 x0) (k0_pay3 x1)) : FVec Ideal S1024x1 .f32) (ix2 r u) = scoreAt x0 x1 r ⟨13, by omega⟩ := by
  unfold k0_pay22 k0_pay21
  refine (score_col 832 (by omega) _ _ _ _ _ _ _ _ r u).trans ?_
  simp only [pay2_eq, pay3_eq]
  rfl

theorem col14 (x0 x1 : Vec Ideal S1024x1280 .f32) (r : Fin 1024) (u : Fin 1) :
    (k0_pay23 (k0_pay2 x0) (k0_pay3 x1) : FVec Ideal S1024x1 .f32) (ix2 r u) = scoreAt x0 x1 r ⟨14, by omega⟩ := by
  unfold k0_pay23
  refine (score_col 896 (by omega) _ _ _ _ _ _ _ _ r u).trans ?_
  simp only [pay2_eq, pay3_eq]
  rfl

theorem col15 (x0 x1 : Vec Ideal S1024x1280 .f32) (r : Fin 1024) (u : Fin 1) :
    (k0_pay24 (k0_pay2 x0) (k0_pay3 x1) : FVec Ideal S1024x1 .f32) (ix2 r u) = scoreAt x0 x1 r ⟨15, by omega⟩ := by
  unfold k0_pay24
  refine (score_col 960 (by omega) _ _ _ _ _ _ _ _ r u).trans ?_
  simp only [pay2_eq, pay3_eq]
  rfl

theorem col16 (x0 x1 : Vec Ideal S1024x1280 .f32) (r : Fin 1024) (u : Fin 1) :
    (k0_pay25 (k0_pay2 x0) (k0_pay3 x1) : FVec Ideal S1024x1 .f32) (ix2 r u) = scoreAt x0 x1 r ⟨16, by omega⟩ := by
  unfold k0_pay25
  refine (score_col 1024 (by omega) _ _ _ _ _ _ _ _ r u).trans ?_
  simp only [pay2_eq, pay3_eq]
  rfl

theorem col17 (x0 x1 : Vec Ideal S1024x1280 .f32) (r : Fin 1024) (u : Fin 1) :
    (k0_pay26 (k0_pay2 x0) (k0_pay3 x1) : FVec Ideal S1024x1 .f32) (ix2 r u) = scoreAt x0 x1 r ⟨17, by omega⟩ := by
  unfold k0_pay26
  refine (score_col 1088 (by omega) _ _ _ _ _ _ _ _ r u).trans ?_
  simp only [pay2_eq, pay3_eq]
  rfl

theorem col18 (x0 x1 : Vec Ideal S1024x1280 .f32) (r : Fin 1024) (u : Fin 1) :
    (k0_pay28 (k0_pay27 (k0_pay2 x0) (k0_pay3 x1)) : FVec Ideal S1024x1 .f32) (ix2 r u) = scoreAt x0 x1 r ⟨18, by omega⟩ := by
  unfold k0_pay28 k0_pay27
  refine (score_col 1152 (by omega) _ _ _ _ _ _ _ _ r u).trans ?_
  simp only [pay2_eq, pay3_eq]
  rfl

theorem col19 (x0 x1 : Vec Ideal S1024x1280 .f32) (r : Fin 1024) (u : Fin 1) :
    (k0_pay29 (k0_pay2 x0) (k0_pay3 x1) : FVec Ideal S1024x1 .f32) (ix2 r u) = scoreAt x0 x1 r ⟨19, by omega⟩ := by
  unfold k0_pay29
  refine (score_col 1216 (by omega) _ _ _ _ _ _ _ _ r u).trans ?_
  simp only [pay2_eq, pay3_eq]
  rfl

/-! ## The twenty stores, last first, and what a whole read-back of them reads -/

/-- The stores of the score columns, last first. -/
def scoreL (x0 x1 : Vec Ideal S1024x1280 .f32) : List (View.Piece (Elt Ideal) S1024x20 .f32) :=
  [⟨Rect.unit ![0, 19] S1024x1.size Facts₀.inb_S1024x20_S1024x1_0_19, k0_pay29 (k0_pay2 x0) (k0_pay3 x1)⟩,
   ⟨Rect.unit ![0, 18] S1024x1.size Facts₀.inb_S1024x20_S1024x1_0_18, k0_pay28 (k0_pay27 (k0_pay2 x0) (k0_pay3 x1))⟩,
   ⟨Rect.unit ![0, 17] S1024x1.size Facts₀.inb_S1024x20_S1024x1_0_17, k0_pay26 (k0_pay2 x0) (k0_pay3 x1)⟩,
   ⟨Rect.unit ![0, 16] S1024x1.size Facts₀.inb_S1024x20_S1024x1_0_16, k0_pay25 (k0_pay2 x0) (k0_pay3 x1)⟩,
   ⟨Rect.unit ![0, 15] S1024x1.size Facts₀.inb_S1024x20_S1024x1_0_15, k0_pay24 (k0_pay2 x0) (k0_pay3 x1)⟩,
   ⟨Rect.unit ![0, 14] S1024x1.size Facts₀.inb_S1024x20_S1024x1_0_14, k0_pay23 (k0_pay2 x0) (k0_pay3 x1)⟩,
   ⟨Rect.unit ![0, 13] S1024x1.size Facts₀.inb_S1024x20_S1024x1_0_13, k0_pay22 (k0_pay21 (k0_pay2 x0) (k0_pay3 x1))⟩,
   ⟨Rect.unit ![0, 12] S1024x1.size Facts₀.inb_S1024x20_S1024x1_0_12, k0_pay20 (k0_pay2 x0) (k0_pay3 x1)⟩,
   ⟨Rect.unit ![0, 11] S1024x1.size Facts₀.inb_S1024x20_S1024x1_0_11, k0_pay19 (k0_pay2 x0) (k0_pay3 x1)⟩,
   ⟨Rect.unit ![0, 10] S1024x1.size Facts₀.inb_S1024x20_S1024x1_0_10, k0_pay18 (k0_pay2 x0) (k0_pay3 x1)⟩,
   ⟨Rect.unit ![0, 9] S1024x1.size Facts₀.inb_S1024x20_S1024x1_0_9, k0_pay17 (k0_pay2 x0) (k0_pay3 x1)⟩,
   ⟨Rect.unit ![0, 8] S1024x1.size Facts₀.inb_S1024x20_S1024x1_0_8, k0_pay16 (k0_pay15 (k0_pay2 x0) (k0_pay3 x1))⟩,
   ⟨Rect.unit ![0, 7] S1024x1.size Facts₀.inb_S1024x20_S1024x1_0_7, k0_pay14 (k0_pay2 x0) (k0_pay3 x1)⟩,
   ⟨Rect.unit ![0, 6] S1024x1.size Facts₀.inb_S1024x20_S1024x1_0_6, k0_pay13 (k0_pay2 x0) (k0_pay3 x1)⟩,
   ⟨Rect.unit ![0, 5] S1024x1.size Facts₀.inb_S1024x20_S1024x1_0_5, k0_pay12 (k0_pay2 x0) (k0_pay3 x1)⟩,
   ⟨Rect.unit ![0, 4] S1024x1.size Facts₀.inb_S1024x20_S1024x1_0_4, k0_pay11 (k0_pay2 x0) (k0_pay3 x1)⟩,
   ⟨Rect.unit ![0, 3] S1024x1.size Facts₀.inb_S1024x20_S1024x1_0_3, k0_pay10 (k0_pay9 x0 x1)⟩,
   ⟨Rect.unit ![0, 2] S1024x1.size Facts₀.inb_S1024x20_S1024x1_0_2, k0_pay8 x0 x1⟩,
   ⟨Rect.unit ![0, 1] S1024x1.size Facts₀.inb_S1024x20_S1024x1_0_1, k0_pay7 x0 x1⟩,
   ⟨Rect.unit ![0, 0] S1024x1.size Facts₀.inb_S1024x20_S1024x1_0_0, k0_pay6 x0 x1⟩]

theorem scoreL_pay (x0 x1 : Vec Ideal S1024x1280 .f32) :
    ∀ p ∈ scoreL x0 x1, ∀ x : p.1.shape.Idx, p.2 x = score x0 x1 (p.1.emb x) := by
  intro p hp
  simp only [scoreL, List.mem_cons, List.not_mem_nil, or_false] at hp
  rcases hp with rfl | rfl | rfl | rfl | rfl | rfl | rfl | rfl | rfl | rfl | rfl | rfl | rfl | rfl | rfl | rfl | rfl | rfl | rfl | rfl
  · intro (x : S1024x1.Idx)
    obtain ⟨r, u, rfl⟩ : ∃ (r : Fin 1024) (u : Fin 1), x = ix2 r u := ⟨x 0, x 1, eq_ix2 x⟩
    rw [emb_col 19 (by omega) _ r u]
    exact col19 x0 x1 r u
  · intro (x : S1024x1.Idx)
    obtain ⟨r, u, rfl⟩ : ∃ (r : Fin 1024) (u : Fin 1), x = ix2 r u := ⟨x 0, x 1, eq_ix2 x⟩
    rw [emb_col 18 (by omega) _ r u]
    exact col18 x0 x1 r u
  · intro (x : S1024x1.Idx)
    obtain ⟨r, u, rfl⟩ : ∃ (r : Fin 1024) (u : Fin 1), x = ix2 r u := ⟨x 0, x 1, eq_ix2 x⟩
    rw [emb_col 17 (by omega) _ r u]
    exact col17 x0 x1 r u
  · intro (x : S1024x1.Idx)
    obtain ⟨r, u, rfl⟩ : ∃ (r : Fin 1024) (u : Fin 1), x = ix2 r u := ⟨x 0, x 1, eq_ix2 x⟩
    rw [emb_col 16 (by omega) _ r u]
    exact col16 x0 x1 r u
  · intro (x : S1024x1.Idx)
    obtain ⟨r, u, rfl⟩ : ∃ (r : Fin 1024) (u : Fin 1), x = ix2 r u := ⟨x 0, x 1, eq_ix2 x⟩
    rw [emb_col 15 (by omega) _ r u]
    exact col15 x0 x1 r u
  · intro (x : S1024x1.Idx)
    obtain ⟨r, u, rfl⟩ : ∃ (r : Fin 1024) (u : Fin 1), x = ix2 r u := ⟨x 0, x 1, eq_ix2 x⟩
    rw [emb_col 14 (by omega) _ r u]
    exact col14 x0 x1 r u
  · intro (x : S1024x1.Idx)
    obtain ⟨r, u, rfl⟩ : ∃ (r : Fin 1024) (u : Fin 1), x = ix2 r u := ⟨x 0, x 1, eq_ix2 x⟩
    rw [emb_col 13 (by omega) _ r u]
    exact col13 x0 x1 r u
  · intro (x : S1024x1.Idx)
    obtain ⟨r, u, rfl⟩ : ∃ (r : Fin 1024) (u : Fin 1), x = ix2 r u := ⟨x 0, x 1, eq_ix2 x⟩
    rw [emb_col 12 (by omega) _ r u]
    exact col12 x0 x1 r u
  · intro (x : S1024x1.Idx)
    obtain ⟨r, u, rfl⟩ : ∃ (r : Fin 1024) (u : Fin 1), x = ix2 r u := ⟨x 0, x 1, eq_ix2 x⟩
    rw [emb_col 11 (by omega) _ r u]
    exact col11 x0 x1 r u
  · intro (x : S1024x1.Idx)
    obtain ⟨r, u, rfl⟩ : ∃ (r : Fin 1024) (u : Fin 1), x = ix2 r u := ⟨x 0, x 1, eq_ix2 x⟩
    rw [emb_col 10 (by omega) _ r u]
    exact col10 x0 x1 r u
  · intro (x : S1024x1.Idx)
    obtain ⟨r, u, rfl⟩ : ∃ (r : Fin 1024) (u : Fin 1), x = ix2 r u := ⟨x 0, x 1, eq_ix2 x⟩
    rw [emb_col 9 (by omega) _ r u]
    exact col9 x0 x1 r u
  · intro (x : S1024x1.Idx)
    obtain ⟨r, u, rfl⟩ : ∃ (r : Fin 1024) (u : Fin 1), x = ix2 r u := ⟨x 0, x 1, eq_ix2 x⟩
    rw [emb_col 8 (by omega) _ r u]
    exact col8 x0 x1 r u
  · intro (x : S1024x1.Idx)
    obtain ⟨r, u, rfl⟩ : ∃ (r : Fin 1024) (u : Fin 1), x = ix2 r u := ⟨x 0, x 1, eq_ix2 x⟩
    rw [emb_col 7 (by omega) _ r u]
    exact col7 x0 x1 r u
  · intro (x : S1024x1.Idx)
    obtain ⟨r, u, rfl⟩ : ∃ (r : Fin 1024) (u : Fin 1), x = ix2 r u := ⟨x 0, x 1, eq_ix2 x⟩
    rw [emb_col 6 (by omega) _ r u]
    exact col6 x0 x1 r u
  · intro (x : S1024x1.Idx)
    obtain ⟨r, u, rfl⟩ : ∃ (r : Fin 1024) (u : Fin 1), x = ix2 r u := ⟨x 0, x 1, eq_ix2 x⟩
    rw [emb_col 5 (by omega) _ r u]
    exact col5 x0 x1 r u
  · intro (x : S1024x1.Idx)
    obtain ⟨r, u, rfl⟩ : ∃ (r : Fin 1024) (u : Fin 1), x = ix2 r u := ⟨x 0, x 1, eq_ix2 x⟩
    rw [emb_col 4 (by omega) _ r u]
    exact col4 x0 x1 r u
  · intro (x : S1024x1.Idx)
    obtain ⟨r, u, rfl⟩ : ∃ (r : Fin 1024) (u : Fin 1), x = ix2 r u := ⟨x 0, x 1, eq_ix2 x⟩
    rw [emb_col 3 (by omega) _ r u]
    exact col3 x0 x1 r u
  · intro (x : S1024x1.Idx)
    obtain ⟨r, u, rfl⟩ : ∃ (r : Fin 1024) (u : Fin 1), x = ix2 r u := ⟨x 0, x 1, eq_ix2 x⟩
    rw [emb_col 2 (by omega) _ r u]
    exact col2 x0 x1 r u
  · intro (x : S1024x1.Idx)
    obtain ⟨r, u, rfl⟩ : ∃ (r : Fin 1024) (u : Fin 1), x = ix2 r u := ⟨x 0, x 1, eq_ix2 x⟩
    rw [emb_col 1 (by omega) _ r u]
    exact col1 x0 x1 r u
  · intro (x : S1024x1.Idx)
    obtain ⟨r, u, rfl⟩ : ∃ (r : Fin 1024) (u : Fin 1), x = ix2 r u := ⟨x 0, x 1, eq_ix2 x⟩
    rw [emb_col 0 (by omega) _ r u]
    exact col0 x0 x1 r u

theorem scoreL_cover (x0 x1 : Vec Ideal S1024x1280 .f32) : ∀ y : S1024x20.Idx, ∃ p ∈ scoreL x0 x1, y ∈ p.1.set :=
  View.cover_of_tiledL (scoreL x0 x1) S1024x1.size (by unfold scoreL; sl_kernel_rfl)

theorem hz2 : (![0, 0] : Fin 2 → Nat) = fun _ => 0 := funext fun a => by fin_cases a <;> rfl

/-- A whole read-back of the score columns is the score block. -/
theorem scratch_read (v : View sig .tc .vmem S1024x20 .f32) (x0 x1 : Vec Ideal S1024x1280 .f32)
    (inb : ∀ a, (![0, 0] : Fin 2 → ℕ) a + S1024x20.size a ≤ S1024x20.size a) :
    v.readCov (scoreL x0 x1) (Rect.unit ![0, 0] S1024x20.size inb).toLoadRect = score x0 x1 := by
  rw [View.readCov_eq_canon_ld _ _ _ (scoreL_cover x0 x1), View.ld_unit_zero (S := S1024x20) hz2]
  funext y
  exact View.canon_apply_of_pieces (score x0 x1) _ (scoreL_pay x0 x1) y (scoreL_cover x0 x1 y)

end Cert.KernelIdeal.Pay

end
-- ==== Proof.KernelOut.lean ====
/-
  The output block of 1024 rows, read entry by entry: a total accumulated from zero through the twenty neighbours in
  order, each step adding the neighbour's weight column stretched over 64 columns times the neighbour's 64-column
  slice of the values — the sum over the neighbours of weight times value.
-/
import proofs.«114393_j13692355740194_2_alg».proof.Proof.KernelPay

noncomputable section

open scoped BigOperators

namespace Cert.KernelIdeal.Pay

open Cert.KernelIdeal Cert.KernelIdeal.Gen Idealize.ShloMosaic Idealize.ShloMosaic.ValueIdx

theorem scalar_zero : (Scalar.ofBits (F := Ideal) .f32 0x00000000#32 : EReal) = 0 := Ideal.ofBits_zero_f32

/-- The output block at `(p, d)` is the sum over the neighbours of weight times value. -/
theorem out_apply (v5 : FVec Ideal S1024x1280 .f32) (mb : IVec S1024x20 1) (pr sc : FVec Ideal S1024x20 .f32)
    (p : Fin 1024) (d : Fin 64) :
    k0_pay1 (F := Ideal) v5 (k0_pay30 mb pr sc)
        (k0_pay34 v5 (k0_pay30 mb pr sc) (k0_pay31 v5 mb pr sc) (k0_pay32 v5) (k0_pay33 mb pr sc))
        (k0_pay35 v5) (k0_pay36 (k0_pay30 mb pr sc)) (ix2 p d)
      = ∑ l : Fin 20, k0_pay30 (F := Ideal) mb pr sc (ix2 p l) * v5 (ix2 p ⟨64 * l.val + d.val, by omega⟩) := by
  unfold k0_pay1 k0_pay34 k0_pay31 k0_pay32 k0_pay33 k0_pay35 k0_pay36
  generalize k0_pay30 (F := Ideal) mb pr sc = w
  simp (disch := omega) only [addf_apply, mulf_apply, RowCol.broadcastTo_a1_ab_apply, SliceCols.col_apply,
    SliceCols.cols_apply, broadcast_apply, scalar_zero]
  exact Sdpa.sum20 (fun l => w (ix2 p l) * v5 (ix2 p ⟨64 * l.val + d.val, by omega⟩))

end Cert.KernelIdeal.Pay

end
-- ==== Proof.KernelPieces.lean ====
/-
  What one grid point's body leaves in its two result blocks, as functions of the five blocks it loads: the weights
  block is the stable softmax of the masked, reweighted, scaled score block — the score block being what the twenty
  column stores left in the scratch rows, read back whole — and the output block is the total accumulated over the
  neighbours from those weights and the value block.
-/
import proofs.«114393_j13692355740194_2_alg».proof.Proof.Gen.KernelIdeal.Frame
import proofs.«114393_j13692355740194_2_alg».proof.Proof.KernelScratch
import proofs.«114393_j13692355740194_2_alg».proof.Proof.KernelOut

set_option maxRecDepth 16384

noncomputable section

namespace Cert.KernelIdeal.Pay

open Cert.KernelIdeal Cert.KernelIdeal.Gen Idealize.ShloMosaic Idealize.ShloMosaic.TcCoe Idealize.ShloMosaic.Tactic Idealize.SL.Sem

/-- The weights block a point leaves. -/
theorem weights_block (c : Dev nD) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S1024x20 .i32) (harg4 : arg4.IsWhole) (arg5 : Memref sig .tc .vmem S1024x20 .f32) (harg5 : arg5.IsWhole) (arg6 : Memref sig .tc .vmem S1024x64 .f32) (harg6 : arg6.IsWhole) (arg7 : Memref sig .tc .vmem S1024x20 .f32) (harg7 : arg7.IsWhole) (arg8 : Memref sig .tc .vmem S1024x20 .f32) (harg8 : arg8.IsWhole)
    (x0 : Vec Ideal S1024x1280 .f32) (x1 : Vec Ideal S1024x1280 .f32) (x2 : Vec Ideal S1024x1280 .f32) (x3 : Vec Ideal S1024x20 .i32) (x4 : Vec Ideal S1024x20 .f32) :
    out0_A_6 (F := Ideal) c i arg1 harg1 arg2 harg2 arg3 harg3 arg4 harg4 arg5 harg5 arg6 harg6 arg7 harg7 arg8 harg8 x0 x1 x2 x3 x4 = k0_pay30 (k0_pay5 x3) x4 (score x0 x1) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz2]
  simp only [View.readAt_eq_ld, harg1.read_unread, harg2.read_unread, harg4.read_unread, harg5.read_unread,
    View.ld_unit_zero (S := S1024x1280) hz2, View.ld_unit_zero (S := S1024x20) hz2]
  exact congrArg (k0_pay30 _ _) (scratch_read arg8.view x0 x1 _)

/-- The output block a point leaves. -/
theorem out_block (c : Dev nD) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S1024x20 .i32) (harg4 : arg4.IsWhole) (arg5 : Memref sig .tc .vmem S1024x20 .f32) (harg5 : arg5.IsWhole) (arg6 : Memref sig .tc .vmem S1024x64 .f32) (harg6 : arg6.IsWhole) (arg7 : Memref sig .tc .vmem S1024x20 .f32) (harg7 : arg7.IsWhole) (arg8 : Memref sig .tc .vmem S1024x20 .f32) (harg8 : arg8.IsWhole)
    (x0 : Vec Ideal S1024x1280 .f32) (x1 : Vec Ideal S1024x1280 .f32) (x2 : Vec Ideal S1024x1280 .f32) (x3 : Vec Ideal S1024x20 .i32) (x4 : Vec Ideal S1024x20 .f32) :
    out0_A_5 (F := Ideal) c i arg1 harg1 arg2 harg2 arg3 harg3 arg4 harg4 arg5 harg5 arg6 harg6 arg7 harg7 arg8 harg8 x0 x1 x2 x3 x4
      = k0_pay1 (k0_pay4 x2) (k0_pay30 (k0_pay5 x3) x4 (score x0 x1))
          (k0_pay34 (k0_pay4 x2) (k0_pay30 (k0_pay5 x3) x4 (score x0 x1)) (k0_pay31 (k0_pay4 x2) (k0_pay5 x3) x4 (score x0 x1))
            (k0_pay32 (k0_pay4 x2)) (k0_pay33 (k0_pay5 x3) x4 (score x0 x1)))
          (k0_pay35 (k0_pay4 x2)) (k0_pay36 (k0_pay30 (k0_pay5 x3) x4 (score x0 x1))) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread,
    View.ld_unit_zero (S := S1024x1280) hz2, View.ld_unit_zero (S := S1024x20) hz2]
  have e := scratch_read arg8.view x0 x1 Facts₀.inb_S1024x20_S1024x20_0_0
  unfold scoreL at e
  rw [e]

end Cert.KernelIdeal.Pay

end
-- ==== Proof.KernelBlocks.lean ====
/-
  From blocks to arrays.  Grid point `t` (of 64) works on rows `1024 t … 1024 t + 1023`: the query, key and value
  blocks are those rows of the arguments with the 20 × 64 neighbour-feature pairs laid side by side in 1280 columns,
  the mask block those rows of the mask bits widened to words, and the prior block rows `1024 (t mod 32) …` of the
  prior — which is row `n mod 32768` for row `n` of the block, the two head segments reading the same prior rows.
  So the weights block and the output block a point writes back are those rows of the attention weights and of the
  weighted value sums; the 64 blocks tile each result array.
-/
import proofs.«114393_j13692355740194_2_alg».proof.Proof.Gen.KernelIdeal.Value
import proofs.«114393_j13692355740194_2_alg».proof.Proof.KernelPieces
import Idealize.ShloMosaic.Lib.StableHlo.Run

set_option maxRecDepth 16384

noncomputable section

open scoped BigOperators

namespace Cert.KernelIdeal.Blocks

open Cert.KernelIdeal Cert.KernelIdeal.Gen Cert.KernelIdeal.Pay Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The five argument arrays on core `c`. -/
abbrev aq (c : Dev nD) : Sdpa.SQ.Idx → EReal := m ((c : Thread nD τ).loc main_arg0)
abbrev ak (c : Dev nD) : Sdpa.SQ.Idx → EReal := m ((c : Thread nD τ).loc main_arg1)
abbrev av (c : Dev nD) : Sdpa.SQ.Idx → EReal := m ((c : Thread nD τ).loc main_arg2)
abbrev ar (c : Dev nD) : Sdpa.SR.Idx → EReal := m ((c : Thread nD τ).loc main_arg3)
abbrev am (c : Dev nD) : Sdpa.SM.Idx → BitVec 1 := m ((c : Thread nD τ).loc main_arg4)

/-! ## The arrays as the region finds them -/

theorem V0_eq (c : Dev nD) : (V m c main_v0 : S65536x1280.Idx → EReal) = shapeCast S65536x1280 (aq m c) Facts₀.shapeCasts_S65536x20x64_S65536x1280 := by
  dsimp only [Gen.V, Gen.hostOps0]; after_results; all_goals rfl
theorem V1_eq (c : Dev nD) : (V m c main_v1 : S65536x1280.Idx → EReal) = shapeCast S65536x1280 (ak m c) Facts₀.shapeCasts_S65536x20x64_S65536x1280 := by
  dsimp only [Gen.V, Gen.hostOps0]; after_results; all_goals rfl
theorem V2_eq (c : Dev nD) : (V m c main_v2 : S65536x1280.Idx → EReal) = shapeCast S65536x1280 (av m c) Facts₀.shapeCasts_S65536x20x64_S65536x1280 := by
  dsimp only [Gen.V, Gen.hostOps0]; after_results; all_goals rfl
theorem V3_eq (c : Dev nD) : (V m c main_v3 : S65536x20.Idx → BitVec 32) = extui 32 (am m c) Facts₀.natLt_1_32 := by
  dsimp only [Gen.V, Gen.hostOps0]; after_results; all_goals rfl

/-- A row of 1280 columns is 20 neighbours of 64 features: `[65536, 20, 64] → [65536, 1280]` at `(n, 64 l + d)`. -/
theorem cast_rows (x : Sdpa.SQ.Idx → EReal) (h : S65536x20x64.ShapeCasts S65536x1280) (n : Fin 65536) (l : Fin 20) (d : Fin 64) :
    shapeCast S65536x1280 x h (ix2 n ⟨64 * l.val + d.val, by omega⟩) = x (ix3 n l d) :=
  shapeCast_apply x h _ _ (by
    rw [Shape.rowMajor_val_three, Shape.rowMajor_val_two]
    show (n.val * 20 + l.val) * 64 + d.val = n.val * 1280 + (64 * l.val + d.val)
    omega)

/-! ## The index maps, decided over the 64 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val % 32 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The array row of block row `p` at point `t`. -/
def rowOf (t : Fin cfg0.N) (p : Fin 1024) : Fin 65536 :=
  ⟨t.val * 1024 + p.val, by have := t.isLt; have h : cfg0.N = 64 := N_0; omega⟩

/-- Where window 0's block at point `t` puts its local index `(p, x)`. -/
theorem emb0 (t : Fin cfg0.N) (p : Fin 1024) (x : Fin 1280) :
    (((cfg0.win 0).blk t).view.emb (ix2 p x) : S65536x1280.Idx) = ix2 (rowOf t p) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_0.index t (0 : Fin 2) * 1024 + 1 * p.val = t.val * 1024 + p.val; rw [e00]; omega
  | ⟨1, _⟩ => show win0_0.index t (1 : Fin 2) * 1280 + 1 * x.val = x.val; rw [e01]; omega

/-- Where window 1's block at point `t` puts its local index `(p, x)`. -/
theorem emb1 (t : Fin cfg0.N) (p : Fin 1024) (x : Fin 1280) :
    (((cfg0.win 1).blk t).view.emb (ix2 p x) : S65536x1280.Idx) = ix2 (rowOf t p) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_1.index t (0 : Fin 2) * 1024 + 1 * p.val = t.val * 1024 + p.val; rw [e10]; omega
  | ⟨1, _⟩ => show win0_1.index t (1 : Fin 2) * 1280 + 1 * x.val = x.val; rw [e11]; omega

/-- Where window 2's block at point `t` puts its local index `(p, x)`. -/
theorem emb2 (t : Fin cfg0.N) (p : Fin 1024) (x : Fin 1280) :
    (((cfg0.win 2).blk t).view.emb (ix2 p x) : S65536x1280.Idx) = ix2 (rowOf t p) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_2.index t (0 : Fin 2) * 1024 + 1 * p.val = t.val * 1024 + p.val; rw [e20]; omega
  | ⟨1, _⟩ => show win0_2.index t (1 : Fin 2) * 1280 + 1 * x.val = x.val; rw [e21]; omega

/-- Where window 3's block at point `t` puts its local index `(p, x)`. -/
theorem emb3 (t : Fin cfg0.N) (p : Fin 1024) (x : Fin 20) :
    (((cfg0.win 3).blk t).view.emb (ix2 p x) : S65536x20.Idx) = ix2 (rowOf t p) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_3.index t (0 : Fin 2) * 1024 + 1 * p.val = t.val * 1024 + p.val; rw [e30]; omega
  | ⟨1, _⟩ => show win0_3.index t (1 : Fin 2) * 20 + 1 * x.val = x.val; rw [e31]; omega

/-- Where window 4's block at point `t` puts its local index `(p, x)`. -/
theorem emb4 (t : Fin cfg0.N) (p : Fin 1024) (x : Fin 20) :
    (((cfg0.win 4).blk t).view.emb (ix2 p x) : S32768x20.Idx) = ix2 (Sdpa.prow (rowOf t p)) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_4.index t (0 : Fin 2) * 1024 + 1 * p.val = (t.val * 1024 + p.val) % 32768; rw [e40]; omega
  | ⟨1, _⟩ => show win0_4.index t (1 : Fin 2) * 20 + 1 * x.val = x.val; rw [e41]; omega

/-- Where window 5's block at point `t` puts its local index `(p, x)`. -/
theorem emb5 (t : Fin cfg0.N) (p : Fin 1024) (x : Fin 64) :
    (((cfg0.win 5).blk t).view.emb (ix2 p x) : S65536x64.Idx) = ix2 (rowOf t p) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_5.index t (0 : Fin 2) * 1024 + 1 * p.val = t.val * 1024 + p.val; rw [e50]; omega
  | ⟨1, _⟩ => show win0_5.index t (1 : Fin 2) * 64 + 1 * x.val = x.val; rw [e51]; omega

/-- Where window 6's block at point `t` puts its local index `(p, x)`. -/
theorem emb6 (t : Fin cfg0.N) (p : Fin 1024) (x : Fin 20) :
    (((cfg0.win 6).blk t).view.emb (ix2 p x) : S65536x20.Idx) = ix2 (rowOf t p) x := by
  obtain ⟨e00, e01, e10, e11, e20, e21, e30, e31, e40, e41, e50, e51, e60, e61⟩ := idx_facts t
  have ht : t.val < 64 := by have := t.isLt; have h : cfg0.N = 64 := N_0; omega
  funext a
  apply Fin.ext
  match a with
  | ⟨0, _⟩ => show win0_6.index t (0 : Fin 2) * 1024 + 1 * p.val = t.val * 1024 + p.val; rw [e60]; omega
  | ⟨1, _⟩ => show win0_6.index t (1 : Fin 2) * 20 + 1 * x.val = x.val; rw [e61]; omega

/-! ## The five blocks a point loads, entry by entry -/

theorem blk0_apply (c : Dev nD) (t : Fin cfg0.N) (p : Fin 1024) (l : Fin 20) (d : Fin 64) :
    (iblk m c 0 t : S1024x1280.Idx → EReal) (ix2 p ⟨64 * l.val + d.val, by omega⟩) = aq m c (ix3 (rowOf t p) l d) := by
  show (V m c main_v0 : S65536x1280.Idx → EReal) (((cfg0.win 0).blk t).view.emb (ix2 p ⟨64 * l.val + d.val, by omega⟩)) = _
  rw [emb0, V0_eq, cast_rows]

theorem blk1_apply (c : Dev nD) (t : Fin cfg0.N) (p : Fin 1024) (l : Fin 20) (d : Fin 64) :
    (iblk m c 1 t : S1024x1280.Idx → EReal) (ix2 p ⟨64 * l.val + d.val, by omega⟩) = ak m c (ix3 (rowOf t p) l d) := by
  show (V m c main_v1 : S65536x1280.Idx → EReal) (((cfg0.win 1).blk t).view.emb (ix2 p ⟨64 * l.val + d.val, by omega⟩)) = _
  rw [emb1, V1_eq, cast_rows]

theorem blk2_apply (c : Dev nD) (t : Fin cfg0.N) (p : Fin 1024) (l : Fin 20) (d : Fin 64) :
    (iblk m c 2 t : S1024x1280.Idx → EReal) (ix2 p ⟨64 * l.val + d.val, by omega⟩) = av m c (ix3 (rowOf t p) l d) := by
  show (V m c main_v2 : S65536x1280.Idx → EReal) (((cfg0.win 2).blk t).view.emb (ix2 p ⟨64 * l.val + d.val, by omega⟩)) = _
  rw [emb2, V2_eq, cast_rows]

theorem blk3_apply (c : Dev nD) (t : Fin cfg0.N) (p : Fin 1024) (l : Fin 20) :
    (iblk m c 3 t : S1024x20.Idx → BitVec 32) (ix2 p l) = (am m c (ix2 (rowOf t p) l)).setWidth 32 := by
  show (V m c main_v3 : S65536x20.Idx → BitVec 32) (((cfg0.win 3).blk t).view.emb (ix2 p l)) = _
  rw [emb3, V3_eq, extui_apply]

theorem blk4_apply (c : Dev nD) (t : Fin cfg0.N) (p : Fin 1024) (l : Fin 20) :
    (iblk m c 4 t : S1024x20.Idx → EReal) (ix2 p l) = ar m c (ix2 (Sdpa.prow (rowOf t p)) l) := by
  show (V m c main_arg3 : S32768x20.Idx → EReal) (((cfg0.win 4).blk t).view.emb (ix2 p l)) = _
  rw [emb4, V_main_arg3]

/-! ## One block row is one array row -/

/-- A mask bit widened to a word is non-zero exactly when the bit is set. -/
theorem bit_of_word : ∀ b : BitVec 1, IntOp.cmpi .ne (b.setWidth 32) 0#32 = b := by decide

theorem pay4_eq (x : Vec Ideal S1024x1280 .f32) : k0_pay4 x = x := shapeCast_self _ _

theorem mask_apply (c : Dev nD) (t : Fin cfg0.N) (p : Fin 1024) (l : Fin 20) :
    k0_pay5 (F := Ideal) (iblk m c 3 t) (ix2 p l) = am m c (ix2 (rowOf t p) l) := by
  show IntOp.cmpi .ne ((iblk m c 3 t : S1024x20.Idx → BitVec 32) (ix2 p l)) 0#32 = _
  rw [blk3_apply, bit_of_word]

theorem score_apply (c : Dev nD) (t : Fin cfg0.N) (p : Fin 1024) (l : Fin 20) :
    score (iblk m c 0 t) (iblk m c 1 t) (ix2 p l) = Sdpa.raw (aq m c) (ak m c) (rowOf t p) l := by
  rw [score_ix2]
  unfold scoreAt Sdpa.raw
  refine Finset.sum_congr rfl fun d _ => ?_
  rw [blk0_apply, blk1_apply]

theorem z_eq (c : Dev nD) (t : Fin cfg0.N) (p : Fin 1024) (l : Fin 20) :
    z (k0_pay5 (iblk m c 3 t)) (iblk m c 4 t) (score (iblk m c 0 t) (iblk m c 1 t)) p l = Sdpa.logit (aq m c) (ak m c) (ar m c) (am m c) (rowOf t p) l := by
  unfold z Sdpa.logit
  rw [mask_apply, score_apply, blk4_apply]

/-- The weight a point computes at block row `p` is the weight of array row `1024 t + p`. -/
theorem weight_eq (c : Dev nD) (t : Fin cfg0.N) (p : Fin 1024) (l : Fin 20) :
    k0_pay30 (F := Ideal) (k0_pay5 (iblk m c 3 t)) (iblk m c 4 t) (score (iblk m c 0 t) (iblk m c 1 t)) (ix2 p l) = Sdpa.weight (aq m c) (ak m c) (ar m c) (am m c) (rowOf t p) l := by
  refine (weights_apply (k0_pay5 (iblk m c 3 t)) (iblk m c 4 t) (score (iblk m c 0 t) (iblk m c 1 t)) p l).trans ?_
  unfold Sdpa.weight Sdpa.ex Sdpa.rowMax zmax
  simp only [z_eq]

/-! ## What each point writes back -/

theorem flushed6_eq (c : Dev nD) (t : Fin cfg0.N) :
    (dats m 0 c).flushed 6 t = ((cfg0.win 6).blk t).view.read (Elt Ideal) (Sdpa.attn (aq m c) (ak m c) (ar m c) (am m c)) := by
  rw [Value.flushed6_A]
  rw [weights_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)]
  funext j
  obtain ⟨p, l, rfl⟩ : ∃ (p : Fin 1024) (l : Fin 20), j = ix2 p l := ⟨j 0, j 1, eq_ix2 j⟩
  show k0_pay30 (F := Ideal) (k0_pay5 (iblk m c 3 t)) (iblk m c 4 t) (score (iblk m c 0 t) (iblk m c 1 t)) (ix2 p l) = Sdpa.attn (aq m c) (ak m c) (ar m c) (am m c) (((cfg0.win 6).blk t).view.emb (ix2 p l))
  rw [weight_eq, emb6, Sdpa.attn_ix2]

theorem flushed5_eq (c : Dev nD) (t : Fin cfg0.N) :
    (dats m 0 c).flushed 5 t = ((cfg0.win 5).blk t).view.read (Elt Ideal) (Sdpa.out (aq m c) (ak m c) (av m c) (ar m c) (am m c)) := by
  rw [Value.flushed5_A]
  rw [out_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)]
  funext j
  obtain ⟨p, d, rfl⟩ : ∃ (p : Fin 1024) (d : Fin 64), j = ix2 p d := ⟨j 0, j 1, eq_ix2 j⟩
  refine (out_apply (k0_pay4 (iblk m c 2 t)) (k0_pay5 (iblk m c 3 t)) (iblk m c 4 t) (score (iblk m c 0 t) (iblk m c 1 t)) p d).trans ?_
  show _ = Sdpa.out (aq m c) (ak m c) (av m c) (ar m c) (am m c) (((cfg0.win 5).blk t).view.emb (ix2 p d))
  rw [emb5, Sdpa.out_ix2]
  refine Finset.sum_congr rfl fun l _ => ?_
  rw [weight_eq, pay4_eq, blk2_apply]

/-! ## The blocks tile the arrays -/

/-- An index of the array is in point `t`'s block of window 5 iff each coordinate is in the block's range. -/
theorem mem_blk5 (t : Fin cfg0.N) (i : S65536x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v4_0).slice (win0_5.rect t)).set ↔ _
  rw [View.set_slice_whole, Rect.mem_set_unit]
  exact Iff.rfl

/-- Row `n` of the array is in the block of point `n / 1024`. -/
theorem cover5 (i : S65536x64.Idx) : ∃ t : Fin cfg0.N, (cfg0.win 5).flush t = true ∧ i ∈ ((cfg0.win 5).blk t).view.set := by
  have hN : cfg0.N = 64 := N_0
  have hi0 : (i 0).val < 65536 := (i 0).isLt
  have hi1 : (i 1).val < 64 := (i 1).isLt
  refine ⟨⟨(i 0).val / 1024, by omega⟩, flush0_5 _, ?_⟩
  rw [mem_blk5]
  obtain ⟨e00, e01, e10, e11, e20, e21, e30, e31, e40, e41, e50, e51, e60, e61⟩ := idx_facts ⟨(i 0).val / 1024, by omega⟩
  intro a
  match a with
  | ⟨0, _⟩ =>
    show win0_5.index _ (0 : Fin 2) * 1024 ≤ (i 0).val ∧ (i 0).val < win0_5.index _ (0 : Fin 2) * 1024 + 1024
    rw [e50]
    show (i 0).val / 1024 * 1024 ≤ (i 0).val ∧ (i 0).val < (i 0).val / 1024 * 1024 + 1024
    omega
  | ⟨1, _⟩ =>
    show win0_5.index _ (1 : Fin 2) * 64 ≤ (i 1).val ∧ (i 1).val < win0_5.index _ (1 : Fin 2) * 64 + 64
    rw [e51]
    omega

/-- An index of the array is in point `t`'s block of window 6 iff each coordinate is in the block's range. -/
theorem mem_blk6 (t : Fin cfg0.N) (i : S65536x20.Idx) :
    i ∈ ((cfg0.win 6).blk t).view.set ↔ ∀ a : Fin 2, win0_6.index t a * S1024x20.size a ≤ (i a).val ∧ (i a).val < win0_6.index t a * S1024x20.size a + S1024x20.size a := by
  show i ∈ ((View.whole main_v4_1).slice (win0_6.rect t)).set ↔ _
  rw [View.set_slice_whole, Rect.mem_set_unit]
  exact Iff.rfl

/-- Row `n` of the array is in the block of point `n / 1024`. -/
theorem cover6 (i : S65536x20.Idx) : ∃ t : Fin cfg0.N, (cfg0.win 6).flush t = true ∧ i ∈ ((cfg0.win 6).blk t).view.set := by
  have hN : cfg0.N = 64 := N_0
  have hi0 : (i 0).val < 65536 := (i 0).isLt
  have hi1 : (i 1).val < 20 := (i 1).isLt
  refine ⟨⟨(i 0).val / 1024, by omega⟩, flush0_6 _, ?_⟩
  rw [mem_blk6]
  obtain ⟨e00, e01, e10, e11, e20, e21, e30, e31, e40, e41, e50, e51, e60, e61⟩ := idx_facts ⟨(i 0).val / 1024, by omega⟩
  intro a
  match a with
  | ⟨0, _⟩ =>
    show win0_6.index _ (0 : Fin 2) * 1024 ≤ (i 0).val ∧ (i 0).val < win0_6.index _ (0 : Fin 2) * 1024 + 1024
    rw [e60]
    show (i 0).val / 1024 * 1024 ≤ (i 0).val ∧ (i 0).val < (i 0).val / 1024 * 1024 + 1024
    omega
  | ⟨1, _⟩ =>
    show win0_6.index _ (1 : Fin 2) * 20 ≤ (i 1).val ∧ (i 1).val < win0_6.index _ (1 : Fin 2) * 20 + 20
    rw [e61]
    omega

/-! ## The two result arrays after the run -/

theorem final5 (c : Dev nD) : (dats m 0 c).arrAt 5 cfg0.N = Sdpa.out (aq m c) (ak m c) (av m c) (ar m c) (am m c) :=
  (dats m 0 c).arrAt_eq_of_cover 5 (Sdpa.out (aq m c) (ak m c) (av m c) (ar m c) (am m c)) (fun t _ => flushed5_eq m c t) cover5

theorem final6 (c : Dev nD) : (dats m 0 c).arrAt 6 cfg0.N = Sdpa.attn (aq m c) (ak m c) (ar m c) (am m c) :=
  (dats m 0 c).arrAt_eq_of_cover 6 (Sdpa.attn (aq m c) (ak m c) (ar m c) (am m c)) (fun t _ => flushed6_eq m c t) cover6

/-- The run, with each result array named as a function of the arguments, the arguments unchanged. -/
theorem run : θ_run defs (onTc (τ := τ) (main (F := Ideal))) ⟨m, fun _ => 0, ρ⟩ fun r => ∀ c : Dev nD,
      r.2.mem ((c : Thread nD τ).loc main_v4_0) = Sdpa.out (aq m c) (ak m c) (av m c) (ar m c) (am m c)
      ∧ r.2.mem ((c : Thread nD τ).loc main_v4_1) = Sdpa.attn (aq m c) (ak m c) (ar m c) (am m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Blocks

end
-- ==== Proof.RefSpec.lean ====
/-
  The reference program's two result stages are the specification's two arrays.

  The reference is read one operation at a time at a coordinate index.  The raw score is the sum from zero of the
  products over the 64 feature entries.  The reshape of the 65536 rows into two segments of 32768 and back sends
  row `n` to (n / 32768, n mod 32768), so the broadcast prior is read at row `n mod 32768`; the quotient by the
  word of 8 is the product with the word of 1/8; the select puts the fill value under the mask bit.  The row
  maximum is a fold of `max` from −∞ over the 20 neighbours, and one more maximum with −∞ leaves it unchanged.
  The shifted exponential, its sum from zero over the neighbours, the quotient, and the sum from zero of the
  weights times the values follow operation by operation.
-/
import proofs.«114393_j13692355740194_2_alg».proof.Proof.Gen.ReferenceIdeal.Read
import proofs.«114393_j13692355740194_2_alg».proof.Proof.Spec
import Idealize.ShloMosaic.Lib.ValueIdx
import Idealize.ShloMosaic.PureOps.Ideal.Laws
import Idealize.ShloMosaic.Lib.Pipeline.Value

noncomputable section

open scoped BigOperators

namespace Cert.ReferenceIdeal.RefSpec

open Cert.ReferenceIdeal Cert.ReferenceIdeal.Gen Cert.ReferenceIdeal.Read Idealize.ShloMosaic Idealize.ShloMosaic.ValueIdx

section
variable (x0 x1 x2 : (⟨S65536x20x64, .f32⟩ : BufTy).Contents (Elt Ideal))
  (x3 : (⟨S32768x20, .f32⟩ : BufTy).Contents (Elt Ideal)) (x4 : (⟨S65536x20, .i1⟩ : BufTy).Contents (Elt Ideal))

/-! ## The raw score -/

/-- The index the feature sum reads at (n, l) and feature `k` is (n, l, k). -/
theorem idx_v1_ix (n : Fin 65536) (l : Fin 20) (k : Fin 64) : idx_main_v1 (ix2 n l) k = ix3 n l k :=
  funext fun a => Fin.ext (by match a with | ⟨0, _⟩ => rfl | ⟨1, _⟩ => rfl | ⟨2, _⟩ => rfl)

/-- The sum from zero of the products is the raw score. -/
theorem v1_eq (n : Fin 65536) (l : Fin 20) : val_main_v1 (F := Ideal) x0 x1 (ix2 n l) = Sdpa.raw x0 x1 n l := by
  rw [val_main_v1_apply, val_main_cst_apply, Ideal.ofBits_def, Ideal.ofBits_zero_f32, zero_add]
  unfold Sdpa.raw
  refine Finset.sum_congr rfl fun k _ => ?_
  rw [idx_v1_ix, val_main_v0_apply, Ideal.mulf_def]

/-! ## The logit -/

/-- The two reshapes undo each other: row (n, l) of the flat layout, sent to its segment and back, is (n, l). -/
theorem idx_v2_v8_ix (n : Fin 65536) (l : Fin 20) : idx_main_v2 (idx_main_v8 (ix2 n l)) = ix2 n l :=
  funext fun a => Fin.ext (by
    have hn : n.val < 65536 := n.isLt
    have hl : l.val < 20 := l.isLt
    match a with
    | ⟨0, _⟩ =>
      show (((n.val * 20 + l.val) / 655360 * 32768 + (n.val * 20 + l.val) / 20 % 32768) * 20 + (n.val * 20 + l.val) % 20) / 20 = n.val
      omega
    | ⟨1, _⟩ =>
      show (((n.val * 20 + l.val) / 655360 * 32768 + (n.val * 20 + l.val) / 20 % 32768) * 20 + (n.val * 20 + l.val) % 20) % 20 = l.val
      omega)

/-- The broadcast prior, read at row (n, l) of the flat layout, is the prior at (n mod 32768, l). -/
theorem idx_v3_v4_v8_ix (n : Fin 65536) (l : Fin 20) :
    idx_main_v3 (idx_main_v4 (idx_main_v8 (ix2 n l))) = ix2 (Sdpa.prow n) l :=
  funext fun a => Fin.ext (by
    have hn : n.val < 65536 := n.isLt
    have hl : l.val < 20 := l.isLt
    match a with
    | ⟨0, _⟩ =>
      show (n.val * 20 + l.val) / 20 % 32768 = n.val % 32768
      omega
    | ⟨1, _⟩ =>
      show (n.val * 20 + l.val) % 20 = l.val
      omega)

/-- The scaled, reweighted score after the two reshapes. -/
theorem v8_eq (n : Fin 65536) (l : Fin 20) :
    val_main_v8 (F := Ideal) x0 x1 x3 (ix2 n l) = Sdpa.raw x0 x1 n l * x3 (ix2 (Sdpa.prow n) l) * Sdpa.c8 := by
  rw [val_main_v8_apply, val_main_v7_apply, val_main_v5_apply, val_main_v2_apply, val_main_v4_apply, val_main_v3_apply,
    val_main_v6_apply, val_main_cst_0_apply, idx_v2_v8_ix, idx_v3_v4_v8_ix, v1_eq, Ideal.ofBits_def, Ideal.hostDivf_def,
    Ideal.mulf_def]
  exact Sdpa.div_w8 _

/-- The select stage is the logit. -/
theorem v9_eq (n : Fin 65536) (l : Fin 20) :
    val_main_v9 (F := Ideal) x0 x1 x3 x4 (ix2 n l) = Sdpa.logit x0 x1 x3 x4 n l := by
  rw [val_main_v9_apply, val_main_call0_v1_apply, val_main_call0_v0_apply, val_main_cst_1_apply, v8_eq, Ideal.ofBits_def]
  rfl

/-! ## The row maximum -/

/-- The row index `n` with neighbour `k` put back on the reduced axis is (n, k). -/
theorem lift_ix (h : S65536x20.Reduces [1] S65536) (n : Fin 65536) (k : Fin (S65536x20.size 1)) :
    h.lift (ix1 n) k = ix2 n (⟨k.val, k.isLt⟩ : Fin 20) := by
  funext c; apply Fin.ext
  fin_cases c <;> rfl

/-- The maximum-reduce over the neighbours, from the word of −∞, is the fold of `max` from −∞ over the logits. -/
theorem v10_eq (n : Fin 65536) :
    val_main_v10 (F := Ideal) x0 x1 x3 x4 (ix1 n) = Sdpa.rowMax x0 x1 x3 x4 n := by
  have h : S65536x20.Reduces [1] S65536 := by decide
  unfold val_main_v10
  rw [Host.reduce_eq_fold_single FloatOps.maximumf _ _ reducesTo_S65536x20_S65536_d1 h h_S_]
  have hf : (val_main_v9 (F := Ideal) x0 x1 x3 x4 ∘ h.lift (ix1 n)) = fun k : Fin 20 => Sdpa.logit x0 x1 x3 x4 n k :=
    funext fun k => by rw [Function.comp_apply, lift_ix, v9_eq]; rfl
  unfold Sdpa.rowMax
  exact congrArg (fun f => Finset.fold max Sdpa.ninf f (Finset.univ : Finset (Fin 20))) hf

/-- One more maximum with −∞ leaves the row maximum unchanged. -/
theorem v12_eq (n : Fin 65536) :
    val_main_v12 (F := Ideal) x0 x1 x3 x4 (ix1 n) = Sdpa.rowMax x0 x1 x3 x4 n := by
  rw [val_main_v12_apply, val_main_v11_apply, val_main_cst_3_apply, v10_eq, Ideal.ofBits_def, Ideal.maximumf_def]
  unfold Sdpa.rowMax
  exact Sdpa.max_ninf_fold _

/-! ## The shifted exponential, its sum, and the weight -/

/-- The row statistic broadcast back along the neighbours is read at the row. -/
theorem idx_v13_v14_ix (n : Fin 65536) (l : Fin 20) : idx_main_v13 (idx_main_v14 (ix2 n l)) = ix1 n :=
  funext fun a => Fin.ext (by match a with | ⟨0, _⟩ => rfl)

/-- The exponential stage is the shifted exponential. -/
theorem v16_eq (n : Fin 65536) (l : Fin 20) :
    val_main_v16 (F := Ideal) x0 x1 x3 x4 (ix2 n l) = Sdpa.ex x0 x1 x3 x4 n l := by
  rw [val_main_v16_apply, val_main_v15_apply, val_main_v14_apply, val_main_v13_apply, idx_v13_v14_ix, v12_eq, v9_eq,
    Ideal.hostUnary_exp_def, Ideal.subf_def]
  rfl

/-- The index the neighbour sum reads at row `n` and neighbour `k` is (n, k). -/
theorem idx_v17_ix (n : Fin 65536) (k : Fin 20) : idx_main_v17 (ix1 n) k = ix2 n k :=
  funext fun a => Fin.ext (by match a with | ⟨0, _⟩ => rfl | ⟨1, _⟩ => rfl)

/-- The sum from zero of the exponentials over the neighbours. -/
theorem v17_eq (n : Fin 65536) :
    val_main_v17 (F := Ideal) x0 x1 x3 x4 (ix1 n) = ∑ l : Fin 20, Sdpa.ex x0 x1 x3 x4 n l := by
  rw [val_main_v17_apply, val_main_cst_4_apply, Ideal.ofBits_def, Ideal.ofBits_zero_f32, zero_add]
  refine Finset.sum_congr rfl fun k _ => ?_
  rw [idx_v17_ix, v16_eq]

/-- The sum broadcast back along the neighbours is read at the row. -/
theorem idx_v18_v19_ix (n : Fin 65536) (l : Fin 20) : idx_main_v18 (idx_main_v19 (ix2 n l)) = ix1 n :=
  funext fun a => Fin.ext (by match a with | ⟨0, _⟩ => rfl)

/-- The quotient stage is the attention weight. -/
theorem v20_eq (n : Fin 65536) (l : Fin 20) :
    val_main_v20 (F := Ideal) x0 x1 x3 x4 (ix2 n l) = Sdpa.weight x0 x1 x3 x4 n l := by
  rw [val_main_v20_apply, val_main_v19_apply, val_main_v18_apply, idx_v18_v19_ix, v17_eq, v16_eq, Ideal.hostDivf_def]
  rfl

/-! ## The weighted sum of the values -/

/-- The index the output sum reads at (n, d) and neighbour `k` is (n, k, d). -/
theorem idx_v24_ix (n : Fin 65536) (d : Fin 64) (k : Fin 20) : idx_main_v24 (ix2 n d) k = ix3 n k d :=
  funext fun a => Fin.ext (by match a with | ⟨0, _⟩ => rfl | ⟨1, _⟩ => rfl | ⟨2, _⟩ => rfl)

/-- The weight broadcast along the features is read at (n, k). -/
theorem idx_v21_v22_ix (n : Fin 65536) (k : Fin 20) (d : Fin 64) : idx_main_v21 (idx_main_v22 (ix3 n k d)) = ix2 n k :=
  funext fun a => Fin.ext (by match a with | ⟨0, _⟩ => rfl | ⟨1, _⟩ => rfl)

/-- The sum from zero of the weights times the values. -/
theorem v24_eq (n : Fin 65536) (d : Fin 64) :
    val_main_v24 (F := Ideal) x0 x1 x2 x3 x4 (ix2 n d)
      = ∑ l : Fin 20, Sdpa.weight x0 x1 x3 x4 n l * x2 (ix3 n l d) := by
  rw [val_main_v24_apply, val_main_cst_5_apply, Ideal.ofBits_def, Ideal.ofBits_zero_f32, zero_add]
  refine Finset.sum_congr rfl fun k _ => ?_
  rw [idx_v24_ix, val_main_v23_apply, val_main_v22_apply, val_main_v21_apply, idx_v21_v22_ix, v20_eq, Ideal.mulf_def]

end

/-! ## The two results -/

/-- The reference's weights are the specification's. -/
theorem attn_eq (x0 x1 : (⟨S65536x20x64, .f32⟩ : BufTy).Contents (Elt Ideal)) (x3 : (⟨S32768x20, .f32⟩ : BufTy).Contents (Elt Ideal)) (x4 : (⟨S65536x20, .i1⟩ : BufTy).Contents (Elt Ideal)) :
    val_main_v20 (F := Ideal) x0 x1 x3 x4 = Sdpa.attn x0 x1 x3 x4 := by
  funext i
  obtain ⟨n, l, rfl⟩ : ∃ (n : Fin 65536) (l : Fin 20), i = ix2 n l := ⟨i 0, i 1, eq_ix2 i⟩
  rw [v20_eq]
  rfl

/-- The reference's output is the specification's. -/
theorem out_eq (x0 x1 x2 : (⟨S65536x20x64, .f32⟩ : BufTy).Contents (Elt Ideal)) (x3 : (⟨S32768x20, .f32⟩ : BufTy).Contents (Elt Ideal)) (x4 : (⟨S65536x20, .i1⟩ : BufTy).Contents (Elt Ideal)) :
    val_main_v24 (F := Ideal) x0 x1 x2 x3 x4 = Sdpa.out x0 x1 x2 x3 x4 := by
  funext i
  obtain ⟨n, d, rfl⟩ : ∃ (n : Fin 65536) (d : Fin 64), i = ix2 n d := ⟨i 0, i 1, eq_ix2 i⟩
  rw [v24_eq]
  rfl

end Cert.ReferenceIdeal.RefSpec

end
-- ==== Proof.lean ====
/-
  The kernel computes, for each of 65536 rows, attention over the row's 20 neighbours: the inner product of each
  neighbour's 64-entry query and key, reweighted by a prior shared by the two head segments (row `n` reads prior row
  `n mod 32768`), scaled by 1/8, replaced by the fill value −10¹⁰ under the mask, then the row's stable softmax, and
  the weighted sum of the neighbours' values.  It works on 64 blocks of 1024 rows, the neighbour-feature pairs laid
  side by side in 1280 columns, the scores parked column by column in scratch rows and read back whole.  The reference
  computes the same arrays with whole-array operations, dividing by 8 where the kernel multiplies by 1/8.

  On the extended reals both programs end at ONE pair of functions of the arguments (`Sdpa.out`, `Sdpa.attn`):
  `x / 8 = x · (1/8)` holds for every extended real; a sum is the same sum in any grouping, and the kernel's running
  total from zero through the neighbours in order is the sum over them; one more maximum with −∞ does not move a
  maximum folded from −∞.  No finiteness is needed: every step is one of these three laws or an identity of indices.
  The frames are the generated ones (the reference's is its generated run with the results dropped), and the
  idealization rewrote nothing.
-/
import proofs.«114393_j13692355740194_2_alg».proof.Defs
import proofs.«114393_j13692355740194_2_alg».proof.Proof.Gen.Kernel
import proofs.«114393_j13692355740194_2_alg».proof.Proof.Gen.Kernel.Frame
import proofs.«114393_j13692355740194_2_alg».proof.Proof.Gen.KernelIdeal
import proofs.«114393_j13692355740194_2_alg».proof.Proof.Gen.KernelIdeal.Frame
import proofs.«114393_j13692355740194_2_alg».proof.Proof.Gen.KernelIdeal.Value
import proofs.«114393_j13692355740194_2_alg».proof.Proof.Gen.ReferenceIdeal
import proofs.«114393_j13692355740194_2_alg».proof.Proof.Gen.ReferenceIdeal.Run
import proofs.«114393_j13692355740194_2_alg».proof.Proof.Gen.ReferenceIdeal.Read
import proofs.«114393_j13692355740194_2_alg».proof.Proof.Gen.Pre_finite_inputs
import proofs.«114393_j13692355740194_2_alg».proof.Proof.KernelBlocks
import proofs.«114393_j13692355740194_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the output at `Sdpa.out` and the weights at `Sdpa.attn` of the arguments. -/
theorem algebraic : Cert.algebraic_KernelIdeal_ReferenceIdeal := by
  intro m ρ m' ρ' _ hagree
  refine ⟨fun c => Sdpa.out (Cert.KernelIdeal.Blocks.aq m c) (Cert.KernelIdeal.Blocks.ak m c) (Cert.KernelIdeal.Blocks.av m c)
        (Cert.KernelIdeal.Blocks.ar m c) (Cert.KernelIdeal.Blocks.am m c),
      fun c => Sdpa.attn (Cert.KernelIdeal.Blocks.aq m c) (Cert.KernelIdeal.Blocks.ak m c)
        (Cert.KernelIdeal.Blocks.ar m c) (Cert.KernelIdeal.Blocks.am m c),
      Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [(hagree c).1, (hagree c).2.1, (hagree c).2.2.1, (hagree c).2.2.2.1, (hagree c).2.2.2.2]
    exact (Cert.ReferenceIdeal.Read.val_main_v24_eq _ _ _ _ _).trans (Cert.ReferenceIdeal.RefSpec.out_eq _ _ _ _ _)
  · refine (h c).2.1.trans ?_
    rw [(hagree c).1, (hagree c).2.1, (hagree c).2.2.2.1, (hagree c).2.2.2.2]
    exact (Cert.ReferenceIdeal.Read.val_main_v20_eq _ _ _ _).trans (Cert.ReferenceIdeal.RefSpec.attn_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
